-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1000x256 : Shape := ⟨2, ![1000, 256]⟩
abbrev S768x256 : Shape := ⟨2, ![768, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S1000x256 : S_.BroadcastsInDim S1000x256 (![] : Fin 0 → Fin S1000x256.rank)
  reducesTo_S1000x256_S_d0_1 : S1000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256 .f32) (main_arg6 : FVec F S256x16 .f32) (main_arg7 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg6
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : IVec S1024x64 32) (main_arg1 : FVec F S1000x256 .f32) (main_arg2 : FVec F S768x256 .f32) (main_arg3 : FVec F S256 .f32) (main_arg4 : FVec F S256x256 .f32) (main_arg5 : FVec F S256 .f32) (main_arg6 : FVec F S256x16 .f32) (main_arg7 : FVec F S16 .f32) : IVec S_ 1 :=
  let main_v0 : FVec F S1000x256 .f32 := Host.absf main_arg1
  let main_cst : FVec F S_ .f32 := constant S_ .f32 0x7F800000#32
  let main_v1 : FVec F S1000x256 .f32 := broadcastInDim S1000x256 ![] bcast_S_S1000x256 main_cst
  let main_v2 : IVec S1000x256 1 := cmpf .olt main_v0 main_v1
  let main_c : IVec S_ 1 := constantI S_ 1 1#1
  let main_v3 : IVec S_ 1 := (fun x v => Host.reduce IntOp.andi x v reducesTo_S1000x256_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S1024x64 : Shape := ⟨2, ![1024, 64]⟩
abbrev S1000x256 : Shape := ⟨2, ![1000, 256]⟩
abbrev S768x256 : Shape := ⟨2, ![768, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩
abbrev S1024x64x1 : Shape := ⟨3, ![1024, 64, 1]⟩
abbrev S1024x64x256 : Shape := ⟨3, ![1024, 64, 256]⟩
abbrev S1024x64x16 : Shape := ⟨3, ![1024, 64, 16]⟩
abbrev S32x64x256 : Shape := ⟨3, ![32, 64, 256]⟩
abbrev S32x64x16 : Shape := ⟨3, ![32, 64, 16]⟩
abbrev S32x256 : Shape := ⟨2, ![32, 256]⟩
abbrev S32x1x256 : Shape := ⟨3, ![32, 1, 256]⟩
abbrev S32x64x768 : Shape := ⟨3, ![32, 64, 768]⟩
abbrev S2048x768 : Shape := ⟨2, ![2048, 768]⟩
abbrev S2048x256 : Shape := ⟨2, ![2048, 256]⟩
abbrev S1x256 : Shape := ⟨2, ![1, 256]⟩
abbrev S2048x16 : Shape := ⟨2, ![2048, 16]⟩
abbrev S1x16 : Shape := ⟨2, ![1, 16]⟩

abbrev nBuf : Space → Nat
  | .hbm => 18
  | .vmem => 10
  | .smem => 0
  | _ => 0

abbrev bufTy : (tb : Table) → Fin (tcTables nBuf tb) → BufTy
  | .hbm, ⟨0, _⟩ => ⟨S1024x64, .i32⟩
  | .hbm, ⟨1, _⟩ => ⟨S1000x256, .f32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S_, .i32⟩
  | .hbm, ⟨9, _⟩ => ⟨S1024x64, .i32⟩
  | .hbm, ⟨10, _⟩ => ⟨S1024x64, .i1⟩
  | .hbm, ⟨11, _⟩ => ⟨S_, .i32⟩
  | .hbm, ⟨12, _⟩ => ⟨S1024x64, .i32⟩
  | .hbm, ⟨13, _⟩ => ⟨S1024x64, .i32⟩
  | .hbm, ⟨14, _⟩ => ⟨S1024x64, .i32⟩
  | .hbm, ⟨15, _⟩ => ⟨S1024x64x1, .i32⟩
  | .hbm, ⟨16, _⟩ => ⟨S1024x64x256, .f32⟩
  | .hbm, ⟨17, _⟩ => ⟨S1024x64x16, .f32⟩
  | .local _ .vmem, ⟨0, _⟩ => ⟨S32x64x256, .f32⟩
  | .local _ .vmem, ⟨1, _⟩ => ⟨S32x64x256, .f32⟩
  | .local _ .vmem, ⟨2, _⟩ => ⟨S768x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x16, .f32⟩
  | .local _ .vmem, ⟨7, _⟩ => ⟨S16, .f32⟩
  | .local _ .vmem, ⟨8, _⟩ => ⟨S32x64x16, .f32⟩
  | .local _ .vmem, ⟨9, _⟩ => ⟨S32x64x16, .f32⟩
  | _, _ => ⟨S1024x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  inb_S768x256_S768x256_0_0 : ∀ a, (![0, 0] : Fin 2 → Nat) a + S768x256.size a ≤ S768x256.size a
  h_S768x256 : 0 < S768x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  inb_S16_S16_0 : ∀ a, (![0] : Fin 1 → Nat) a + S16.size a ≤ S16.size a
  h_S16 : 0 < S16.numel
  reduces_S32x64x256_S32x256 : S32x64x256.Reduces [1] S32x256
  shapeCasts_S32x256_S32x1x256 : S32x256.ShapeCasts S32x1x256
  broadcasts_S32x1x256_S32x64x256 : S32x1x256.Broadcasts S32x64x256
  concatenates_S32x64x256_S32x64x256_S32x64x256_S32x64x768_d2 : Shape.Concatenates [S32x64x256, S32x64x256, S32x64x256] S32x64x768 2
  shapeCasts_S32x64x768_S2048x768 : S32x64x768.ShapeCasts S2048x768
  shapeCasts_S256_S1x256 : S256.ShapeCasts S1x256
  broadcasts_S1x256_S2048x256 : S1x256.Broadcasts S2048x256
  shapeCasts_S2048x256_S32x64x256 : S2048x256.ShapeCasts S32x64x256
  shapeCasts_S32x64x256_S2048x256 : S32x64x256.ShapeCasts S2048x256
  shapeCasts_S16_S1x16 : S16.ShapeCasts S1x16
  broadcasts_S1x16_S2048x16 : S1x16.Broadcasts S2048x16
  shapeCasts_S2048x16_S32x64x16 : S2048x16.ShapeCasts S32x64x16
  inb_S32x64x16_S32x64x16_0_0_0 : ∀ a, (![0, 0, 0] : Fin 3 → Nat) a + S32x64x16.size a ≤ S32x64x16.size a
  h_S32x64x16 : 0 < S32x64x16.numel
  gather_S1000x256_S1024x64x1_S1024x64x256_2_0_n_n_0_2_1256_wf : GatherDims.WF S1000x256 S1024x64x1 S1024x64x256 [2] [0] [] [0] [] 2 ![1, 256]
  dot_S2048x768_S768x256_S2048x256_1_0_0_1_n_n_wf : DotDims.WF S2048x768 S768x256 S2048x256 [1] [0] [0] [1] [] []
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S1024x64x256.size a
  hwx0_0 : ∀ i : grid0.Coords, EltTy.bits .f32 = 32 ∨ (Rect.block (s := S1024x64x256) S32x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x64x16.size a ≤ S1024x64x16.size a
  hwx0_7 : ∀ i : grid0.Coords, EltTy.bits .f32 = 32 ∨ (Rect.block (s := S1024x64x16) S32x64x16.size (cc0_transform_7 i) (hinb0_7 i)).WholeWords (EltTy.packing .f32)

variable [Facts₀]

def gather_S1000x256_S1024x64x1_S1024x64x256_2_0_n_n_0_2_1256 : GatherDims S1000x256 S1024x64x1 S1024x64x256 where
  offsetDims := [2]
  collapsedSliceDims := [0]
  operandBatchingDims := []
  startIndicesBatchingDims := []
  startIndexMap := [0]
  indexVectorDim := 2
  sliceSizes := ![1, 256]
  wf := gather_S1000x256_S1024x64x1_S1024x64x256_2_0_n_n_0_2_1256_wf
def dot_S2048x768_S768x256_S2048x256_1_0_0_1_n_n : DotDims S2048x768 S768x256 S2048x256 where
  lhsContracting := [1]
  rhsContracting := [0]
  lhsNonContracting := [0]
  rhsNonContracting := [1]
  lhsBatch := []
  rhsBatch := []
  wf := dot_S2048x768_S768x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_v6) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x64x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x64 : Shape := ⟨2, ![1024, 64]⟩
abbrev S1000x256 : Shape := ⟨2, ![1000, 256]⟩
abbrev S768x256 : Shape := ⟨2, ![768, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩
abbrev S1024x64x1 : Shape := ⟨3, ![1024, 64, 1]⟩
abbrev S1024x64x256 : Shape := ⟨3, ![1024, 64, 256]⟩
abbrev S1024x256 : Shape := ⟨2, ![1024, 256]⟩
abbrev S1024x1x256 : Shape := ⟨3, ![1024, 1, 256]⟩
abbrev S1024x64x768 : Shape := ⟨3, ![1024, 64, 768]⟩
abbrev S1x1x256 : Shape := ⟨3, ![1, 1, 256]⟩
abbrev S1024x64x16 : Shape := ⟨3, ![1024, 64, 16]⟩
abbrev S1x1x16 : Shape := ⟨3, ![1, 1, 16]⟩

abbrev nBuf : Space → Nat
  | .hbm => 105
  | .vmem => 0
  | .smem => 0
  | _ => 0

abbrev bufTy : (tb : Table) → Fin (tcTables nBuf tb) → BufTy
  | .hbm, ⟨0, _⟩ => ⟨S1024x64, .i32⟩
  | .hbm, ⟨1, _⟩ => ⟨S1000x256, .f32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S_, .i32⟩
  | .hbm, ⟨9, _⟩ => ⟨S1024x64, .i32⟩
  | .hbm, ⟨10, _⟩ => ⟨S1024x64, .i1⟩
  | .hbm, ⟨11, _⟩ => ⟨S_, .i32⟩
  | .hbm, ⟨12, _⟩ => ⟨S1024x64, .i32⟩
  | .hbm, ⟨13, _⟩ => ⟨S1024x64, .i32⟩
  | .hbm, ⟨14, _⟩ => ⟨S1024x64, .i32⟩
  | .hbm, ⟨15, _⟩ => ⟨S1024x64x1, .i32⟩
  | .hbm, ⟨16, _⟩ => ⟨S1024x64x256, .f32⟩
  | .hbm, ⟨17, _⟩ => ⟨S_, .f32⟩
  | .hbm, ⟨18, _⟩ => ⟨S1024x256, .f32⟩
  | .hbm, ⟨19, _⟩ => ⟨S1024x1x256, .f32⟩
  | .hbm, ⟨20, _⟩ => ⟨S1024x64x256, .f32⟩
  | .hbm, ⟨21, _⟩ => ⟨S1024x64x256, .f32⟩
  | .hbm, ⟨22, _⟩ => ⟨S_, .f32⟩
  | .hbm, ⟨23, _⟩ => ⟨S1024x64x256, .f32⟩
  | .hbm, ⟨24, _⟩ => ⟨S1024x64x256, .f32⟩
  | .hbm, ⟨25, _⟩ => ⟨S1024x64x768, .f32⟩
  | .hbm, ⟨26, _⟩ => ⟨S1024x64x256, .f32⟩
  | .hbm, ⟨27, _⟩ => ⟨S1x1x256, .f32⟩
  | .hbm, ⟨28, _⟩ => ⟨S1024x64x256, .f32⟩
  | .hbm, ⟨29, _⟩ => ⟨S1024x64x256, .f32⟩
  | .hbm, ⟨30, _⟩ => ⟨S_, .f32⟩
  | .hbm, ⟨31, _⟩ => ⟨S1024x64x256, .f32⟩
  | .hbm, ⟨32, _⟩ => ⟨S1024x64x256, .f32⟩
  | .hbm, ⟨33, _⟩ => ⟨S1024x64x256, .f32⟩
  | .hbm, ⟨34, _⟩ => ⟨S1x1x256, .f32⟩
  | .hbm, ⟨35, _⟩ => ⟨S1024x64x256, .f32⟩
  | .hbm, ⟨36, _⟩ => ⟨S1024x64x256, .f32⟩
  | .hbm, ⟨37, _⟩ => ⟨S1024x64x256, .f32⟩
  | .hbm, ⟨38, _⟩ => ⟨S_, .f32⟩
  | .hbm, ⟨39, _⟩ => ⟨S1024x256, .f32⟩
  | .hbm, ⟨40, _⟩ => ⟨S1024x1x256, .f32⟩
  | .hbm, ⟨41, _⟩ => ⟨S1024x64x256, .f32⟩
  | .hbm, ⟨42, _⟩ => ⟨S1024x64x256, .f32⟩
  | .hbm, ⟨43, _⟩ => ⟨S_, .f32⟩
  | .hbm, ⟨44, _⟩ => ⟨S1024x64x256, .f32⟩
  | .hbm, ⟨45, _⟩ => ⟨S1024x64x256, .f32⟩
  | .hbm, ⟨46, _⟩ => ⟨S1024x64x768, .f32⟩
  | .hbm, ⟨47, _⟩ => ⟨S1024x64x256, .f32⟩
  | .hbm, ⟨48, _⟩ => ⟨S1x1x256, .f32⟩
  | .hbm, ⟨49, _⟩ => ⟨S1024x64x256, .f32⟩
  | .hbm, ⟨50, _⟩ => ⟨S1024x64x256, .f32⟩
  | .hbm, ⟨51, _⟩ => ⟨S_, .f32⟩
  | .hbm, ⟨52, _⟩ => ⟨S1024x64x256, .f32⟩
  | .hbm, ⟨53, _⟩ => ⟨S1024x64x256, .f32⟩
  | .hbm, ⟨54, _⟩ => ⟨S1024x64x256, .f32⟩
  | .hbm, ⟨55, _⟩ => ⟨S1x1x256, .f32⟩
  | .hbm, ⟨56, _⟩ => ⟨S1024x64x256, .f32⟩
  | .hbm, ⟨57, _⟩ => ⟨S1024x64x256, .f32⟩
  | .hbm, ⟨58, _⟩ => ⟨S1024x64x256, .f32⟩
  | .hbm, ⟨59, _⟩ => ⟨S_, .f32⟩
  | .hbm, ⟨60, _⟩ => ⟨S1024x256, .f32⟩
  | .hbm, ⟨61, _⟩ => ⟨S1024x1x256, .f32⟩
  | .hbm, ⟨62, _⟩ => ⟨S1024x64x256, .f32⟩
  | .hbm, ⟨63, _⟩ => ⟨S1024x64x256, .f32⟩
  | .hbm, ⟨64, _⟩ => ⟨S_, .f32⟩
  | .hbm, ⟨65, _⟩ => ⟨S1024x64x256, .f32⟩
  | .hbm, ⟨66, _⟩ => ⟨S1024x64x256, .f32⟩
  | .hbm, ⟨67, _⟩ => ⟨S1024x64x768, .f32⟩
  | .hbm, ⟨68, _⟩ => ⟨S1024x64x256, .f32⟩
  | .hbm, ⟨69, _⟩ => ⟨S1x1x256, .f32⟩
  | .hbm, ⟨70, _⟩ => ⟨S1024x64x256, .f32⟩
  | .hbm, ⟨71, _⟩ => ⟨S1024x64x256, .f32⟩
  | .hbm, ⟨72, _⟩ => ⟨S_, .f32⟩
  | .hbm, ⟨73, _⟩ => ⟨S1024x64x256, .f32⟩
  | .hbm, ⟨74, _⟩ => ⟨S1024x64x256, .f32⟩
  | .hbm, ⟨75, _⟩ => ⟨S1024x64x256, .f32⟩
  | .hbm, ⟨76, _⟩ => ⟨S1x1x256, .f32⟩
  | .hbm, ⟨77, _⟩ => ⟨S1024x64x256, .f32⟩
  | .hbm, ⟨78, _⟩ => ⟨S1024x64x256, .f32⟩
  | .hbm, ⟨79, _⟩ => ⟨S1024x64x256, .f32⟩
  | .hbm, ⟨80, _⟩ => ⟨S_, .f32⟩
  | .hbm, ⟨81, _⟩ => ⟨S1024x256, .f32⟩
  | .hbm, ⟨82, _⟩ => ⟨S1024x1x256, .f32⟩
  | .hbm, ⟨83, _⟩ => ⟨S1024x64x256, .f32⟩
  | .hbm, ⟨84, _⟩ => ⟨S1024x64x256, .f32⟩
  | .hbm, ⟨85, _⟩ => ⟨S_, .f32⟩
  | .hbm, ⟨86, _⟩ => ⟨S1024x64x256, .f32⟩
  | .hbm, ⟨87, _⟩ => ⟨S1024x64x256, .f32⟩
  | .hbm, ⟨88, _⟩ => ⟨S1024x64x768, .f32⟩
  | .hbm, ⟨89, _⟩ => ⟨S1024x64x256, .f32⟩
  | .hbm, ⟨90, _⟩ => ⟨S1x1x256, .f32⟩
  | .hbm, ⟨91, _⟩ => ⟨S1024x64x256, .f32⟩
  | .hbm, ⟨92, _⟩ => ⟨S1024x64x256, .f32⟩
  | .hbm, ⟨93, _⟩ => ⟨S_, .f32⟩
  | .hbm, ⟨94, _⟩ => ⟨S1024x64x256, .f32⟩
  | .hbm, ⟨95, _⟩ => ⟨S1024x64x256, .f32⟩
  | .hbm, ⟨96, _⟩ => ⟨S1024x64x256, .f32⟩
  | .hbm, ⟨97, _⟩ => ⟨S1x1x256, .f32⟩
  | .hbm, ⟨98, _⟩ => ⟨S1024x64x256, .f32⟩
  | .hbm, ⟨99, _⟩ => ⟨S1024x64x256, .f32⟩
  | .hbm, ⟨100, _⟩ => ⟨S1024x64x256, .f32⟩
  | .hbm, ⟨101, _⟩ => ⟨S1024x64x16, .f32⟩
  | .hbm, ⟨102, _⟩ => ⟨S1x1x16, .f32⟩
  | .hbm, ⟨103, _⟩ => ⟨S1024x64x16, .f32⟩
  | .hbm, ⟨104, _⟩ => ⟨S1024x64x16, .f32⟩
  | _, _ => ⟨S1024x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_cst : Ref sig .tc := ⟨.hbm, 72, rfl⟩
abbrev main_call2_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call3_cst : Ref sig .tc := ⟨.hbm, 93, rfl⟩
abbrev main_call3_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  reducesTo_S1024x64x256_S1024x256_d1 : S1024x64x256.ReducesTo [1] S1024x256
  h_S_ : 0 < S_.numel
  bcast_S1024x256_S1024x1x256_0_2 : S1024x256.BroadcastsInDim S1024x1x256 (![0, 2] : Fin 2 → Fin S1024x1x256.rank)
  bcast_S1024x1x256_S1024x64x256_0_1_2 : S1024x1x256.BroadcastsInDim S1024x64x256 (![0, 1, 2] : Fin 3 → Fin S1024x64x256.rank)
  bcast_S_S1024x64x256 : S_.BroadcastsInDim S1024x64x256 (![] : Fin 0 → Fin S1024x64x256.rank)
  concatenates_S1024x64x256_S1024x64x256_S1024x64x256_S1024x64x768_d2 : Shape.Concatenates [S1024x64x256, S1024x64x256, S1024x64x256] S1024x64x768 2
  bcast_S256_S1x1x256_2 : S256.BroadcastsInDim S1x1x256 (![2] : Fin 1 → Fin S1x1x256.rank)
  bcast_S1x1x256_S1024x64x256_0_1_2 : S1x1x256.BroadcastsInDim S1024x64x256 (![0, 1, 2] : Fin 3 → Fin S1024x64x256.rank)
  bcast_S16_S1x1x16_2 : S16.BroadcastsInDim S1x1x16 (![2] : Fin 1 → Fin S1x1x16.rank)
  bcast_S1x1x16_S1024x64x16_0_1_2 : S1x1x16.BroadcastsInDim S1024x64x16 (![0, 1, 2] : Fin 3 → Fin S1024x64x16.rank)
  gather_S1000x256_S1024x64x1_S1024x64x256_2_0_n_n_0_2_1256_wf : GatherDims.WF S1000x256 S1024x64x1 S1024x64x256 [2] [0] [] [0] [] 2 ![1, 256]
  dot_S1024x64x768_S768x256_S1024x64x256_2_0_01_1_n_n_wf : DotDims.WF S1024x64x768 S768x256 S1024x64x256 [2] [0] [0, 1] [1] [] []
  dot_S1024x64x256_S256x256_S1024x64x256_2_0_01_1_n_n_wf : DotDims.WF S1024x64x256 S256x256 S1024x64x256 [2] [0] [0, 1] [1] [] []
  dot_S1024x64x256_S256x16_S1024x64x16_2_0_01_1_n_n_wf : DotDims.WF S1024x64x256 S256x16 S1024x64x16 [2] [0] [0, 1] [1] [] []

variable [Facts₀]

def gather_S1000x256_S1024x64x1_S1024x64x256_2_0_n_n_0_2_1256 : GatherDims S1000x256 S1024x64x1 S1024x64x256 where
  offsetDims := [2]
  collapsedSliceDims := [0]
  operandBatchingDims := []
  startIndicesBatchingDims := []
  startIndexMap := [0]
  indexVectorDim := 2
  sliceSizes := ![1, 256]
  wf := gather_S1000x256_S1024x64x1_S1024x64x256_2_0_n_n_0_2_1256_wf
def dot_S1024x64x768_S768x256_S1024x64x256_2_0_01_1_n_n : DotDims S1024x64x768 S768x256 S1024x64x256 where
  lhsContracting := [2]
  rhsContracting := [0]
  lhsNonContracting := [0, 1]
  rhsNonContracting := [1]
  lhsBatch := []
  rhsBatch := []
  wf := dot_S1024x64x768_S768x256_S1024x64x256_2_0_01_1_n_n_wf
def dot_S1024x64x256_S256x256_S1024x64x256_2_0_01_1_n_n : DotDims S1024x64x256 S256x256 S1024x64x256 where
  lhsContracting := [2]
  rhsContracting := [0]
  lhsNonContracting := [0, 1]
  rhsNonContracting := [1]
  lhsBatch := []
  rhsBatch := []
  wf := dot_S1024x64x256_S256x256_S1024x64x256_2_0_01_1_n_n_wf
def dot_S1024x64x256_S256x16_S1024x64x16_2_0_01_1_n_n : DotDims S1024x64x256 S256x16 S1024x64x16 where
  lhsContracting := [2]
  rhsContracting := [0]
  lhsNonContracting := [0, 1]
  rhsNonContracting := [1]
  lhsBatch := []
  rhsBatch := []
  wf := dot_S1024x64x256_S256x16_S1024x64x16_2_0_01_1_n_n_wf

class Facts : Prop extends Facts₀ where

variable [Facts]
-- ==== Proof.Spec.lean ====
/-
  The mathematics of one batch row, over the extended reals.

  A batch row holds 64 agents, each with a state vector of length 256. One round of communication sends every
  agent the scaled sum of the OTHER agents' states (the column sum of the whole row minus the agent's own
  state, times a fixed scale), joins the agent's current state, that message and the agent's initial state into
  768 features, and passes them through a two-layer perceptron (768 → 256, cut below at a threshold, 256 → 256)
  whose output is added to the state. After four rounds the states are projected to 16 scores per agent.

  Nothing here depends on how the arithmetic is scheduled: every sum is a plain finite sum, so the two programs'
  different groupings (blocks of 32 rows laid out as 2048 × k matrices on one side, the whole 1024 × 64 × k array
  on the other) read as this one function. The scale and the threshold stay symbolic: both programs use the same
  two literals.
-/
import Idealize.ShloMosaic.PureOps.Ideal
import Idealize.ShloMosaic.Lib.ValueIdx

noncomputable section

namespace Cert.Rounds

open Idealize.ShloMosaic

/-- The states of one batch row: 64 agents × 256 coordinates. -/
abbrev Row : Type := Fin 64 → Fin 256 → EReal

/-- The numbers the row computation is parametrised by: the two perceptron layers, the final projection, the
    scale of the message and the threshold the hidden layer is cut at. -/
structure Params where
  W1 : Fin 768 → Fin 256 → EReal
  b1 : Fin 256 → EReal
  W2 : Fin 256 → Fin 256 → EReal
  b2 : Fin 256 → EReal
  Wd : Fin 256 → Fin 16 → EReal
  bd : Fin 16 → EReal
  scale : EReal
  floor : EReal

variable (P : Params)

/-- The message agent `m` receives on coordinate `j`: the sum over all agents minus its own state, scaled. -/
def msg (h : Row) (m : Fin 64) (j : Fin 256) : EReal := ((∑ a : Fin 64, h a j) - h m j) * P.scale

/-- The 768 features of agent `m`: its state, its message, its initial state, end to end. -/
def feat (h h0 : Row) (m : Fin 64) (i : Fin 768) : EReal :=
  if h1 : i.val < 256 then h m ⟨i.val, h1⟩
  else if h2 : i.val < 512 then msg P h m ⟨i.val - 256, by omega⟩
  else h0 m ⟨i.val - 512, by have := i.isLt; omega⟩

theorem feat_lo (h h0 : Row) (m : Fin 64) (i : Fin 768) (j : Fin 256) (hj : i.val = j.val) :
    feat P h h0 m i = h m j := by
  unfold feat
  rw [dif_pos (by have := j.isLt; omega)]
  exact congrArg (h m) (Fin.ext hj)

theorem feat_mid (h h0 : Row) (m : Fin 64) (i : Fin 768) (j : Fin 256) (hj : i.val = 256 + j.val) :
    feat P h h0 m i = msg P h m j := by
  unfold feat
  rw [dif_neg (by omega), dif_pos (by have := j.isLt; omega)]
  exact congrArg (msg P h m) (Fin.ext (by show i.val - 256 = j.val; omega))

theorem feat_hi (h h0 : Row) (m : Fin 64) (i : Fin 768) (j : Fin 256) (hj : i.val = 512 + j.val) :
    feat P h h0 m i = h0 m j := by
  unfold feat
  rw [dif_neg (by omega), dif_neg (by omega)]
  exact congrArg (h0 m) (Fin.ext (by show i.val - 512 = j.val; omega))

/-- The hidden layer on a feature vector: an affine map cut below at the threshold. -/
def hidden (x : Fin 768 → EReal) (k : Fin 256) : EReal := max ((∑ i : Fin 768, x i * P.W1 i k) + P.b1 k) P.floor

/-- The perceptron's output on a feature vector. -/
def delta (x : Fin 768 → EReal) (j : Fin 256) : EReal := (∑ k : Fin 256, hidden P x k * P.W2 k j) + P.b2 j

/-- One round: every agent's state plus the perceptron's output on its features. -/
def round (h0 h : Row) : Row := fun m j => h m j + delta P (feat P h h0 m) j

/-- The scores of agent `m`: an affine map of its state. -/
def scores (h : Row) (m : Fin 64) (a : Fin 16) : EReal := (∑ k : Fin 256, h m k * P.Wd k a) + P.bd a

/-- Four rounds from the initial states, then the scores. -/
def model (h0 : Row) : Fin 64 → Fin 16 → EReal := scores P (round P h0 (round P h0 (round P h0 (round P h0 h0))))

/-! ## From arrays -/

/-- Batch row `b` of an array of `n` rows of 64 × 256 states. -/
def rowOf {n : Nat} (X : (⟨3, ![n, 64, 256]⟩ : Shape).Idx → EReal) (b : Fin n) : Row :=
  fun m j => X (ValueIdx.ix3 b m j)

/-- The parameters read off the weight arrays; the scale and the threshold are the two literals both programs
    carry (the first rounds 1/63 to single precision, the second is zero: neither value is ever used). -/
def paramsOf (W1 : (⟨2, ![768, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wd : (⟨2, ![256, 16]⟩ : Shape).Idx → EReal) (bd : (⟨1, ![16]⟩ : Shape).Idx → EReal) : Params where
  W1 := fun i k => W1 (ValueIdx.ix2 i k)
  b1 := fun k => b1 (ValueIdx.ix1 k)
  W2 := fun k j => W2 (ValueIdx.ix2 k j)
  b2 := fun j => b2 (ValueIdx.ix1 j)
  Wd := fun k a => Wd (ValueIdx.ix2 k a)
  bd := fun a => bd (ValueIdx.ix1 a)
  scale := Ideal.ofBits .f32 0x3C820821#32
  floor := Ideal.ofBits .f32 0x00000000#32

/-- The whole result array: entry (b, m, a) is the score `a` of agent `m` after four rounds on batch row `b` of the
    gathered initial states `H0`. -/
def result (H0 : (⟨3, ![1024, 64, 256]⟩ : Shape).Idx → EReal)
    (W1 : (⟨2, ![768, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wd : (⟨2, ![256, 16]⟩ : Shape).Idx → EReal) (bd : (⟨1, ![16]⟩ : Shape).Idx → EReal) :
    (⟨3, ![1024, 64, 16]⟩ : Shape).Idx → EReal :=
  fun i => model (paramsOf W1 b1 W2 b2 Wd bd) (rowOf H0 ⟨(i 0).val, (i 0).isLt⟩) ⟨(i 1).val, (i 1).isLt⟩ ⟨(i 2).val, (i 2).isLt⟩

end Cert.Rounds

end
-- ==== Proof.LibDotRows.lean ====
/-
  Two matrix products read at an index over the extended reals, as plain finite sums, for any extents.

  * a matrix product of an [M, K] operand with a [K, N] operand into the all-zero accumulator, at (r, c), is
    ∑ k, l (r, k) · w (k, c);
  * a host contraction of the LAST axis of an [A, B, K] operand with the FIRST axis of a [K, N] operand, at
    (a, b, c), is ∑ k, l (a, b, k) · w (k, c).

  The dimension record of a printed program enters only through one-line coordinate facts (which coordinate of
  the result, or of the contraction position, each operand coordinate is): for a record with literal axis lists
  each is `by unfold DotDims.lhsIdx; rw [dif_neg (by decide), dif_pos (by decide)]; rfl` or
  `D.lhsIdx_val_of_single rfl j q`.
-/
import Idealize.ShloMosaic.PureOps.Ideal.Laws
import Idealize.ShloMosaic.Lib.ValueIdx

noncomputable section

namespace Cert.LibDotRows

open Idealize.ShloMosaic Idealize.ShloMosaic.ValueIdx

/-- [M, K] · [K, N] into the zero accumulator, at (r, c): the sum over the shared axis. -/
theorem matmul_zero_ix2 {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (l : FVec Ideal ⟨2, ![M, K]⟩ φ₁) (w : FVec Ideal ⟨2, ![K, N]⟩ φ₂) (r : Fin M) (c : Fin N) :
    matmul D prec l w (constant ⟨2, ![M, N]⟩ .f32 0x00000000#32) (ix2 r c) = ∑ k : Fin K, l (ix2 r k) * w (ix2 k c) := by
  refine (Ideal.matmul_constant_zero_apply D prec l w (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The host's contraction [A, B, K] · [K, N] over the shared axis, at (a, b, c). -/
theorem dotGeneral_ix3 {A B K N : Nat} {φ₁ φ₂ : FTy}
    (D : DotDims ⟨3, ![A, B, K]⟩ ⟨2, ![K, N]⟩ ⟨3, ![A, B, N]⟩) (prec : Option ContractPrecision)
    (hr : D.contr.rank = 1) (hs : D.contr.size ⟨0, by omega⟩ = K)
    (hl0 : ∀ (j : (⟨3, ![A, B, N]⟩ : Shape).Idx) (q : D.contr.Idx), (D.lhsIdx j q (0 : Fin 3)).val = (j (0 : Fin 3)).val)
    (hl1 : ∀ (j : (⟨3, ![A, B, N]⟩ : Shape).Idx) (q : D.contr.Idx), (D.lhsIdx j q (1 : Fin 3)).val = (j (1 : Fin 3)).val)
    (hl2 : ∀ (j : (⟨3, ![A, B, N]⟩ : Shape).Idx) (q : D.contr.Idx), (D.lhsIdx j q (2 : Fin 3)).val = (q ⟨0, by omega⟩).val)
    (hr0 : ∀ (j : (⟨3, ![A, B, N]⟩ : Shape).Idx) (q : D.contr.Idx), (D.rhsIdx j q (0 : Fin 2)).val = (q ⟨0, by omega⟩).val)
    (hr1 : ∀ (j : (⟨3, ![A, B, N]⟩ : Shape).Idx) (q : D.contr.Idx), (D.rhsIdx j q (1 : Fin 2)).val = (j (2 : Fin 3)).val)
    (l : FVec Ideal ⟨3, ![A, B, K]⟩ φ₁) (w : FVec Ideal ⟨2, ![K, N]⟩ φ₂) (a : Fin A) (b : Fin B) (c : Fin N) :
    Host.dotGeneral D prec l w (ix3 a b c) = ∑ k : Fin K, l (ix3 a b k) * w (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 a b c) ((contrEquiv1 D K hr hs).symm k) = ix3 a b k := funext fun x => Fin.ext (by
    match x with
    | ⟨0, _⟩ => exact hl0 _ _
    | ⟨1, _⟩ => exact hl1 _ _
    | ⟨2, _⟩ => exact (hl2 _ _).trans hk)
  have er : D.rhsIdx (ix3 a b c) ((contrEquiv1 D K hr hs).symm k) = ix2 k c := funext fun x => Fin.ext (by
    match x with
    | ⟨0, _⟩ => exact (hr0 _ _).trans hk
    | ⟨1, _⟩ => exact hr1 _ _)
  rw [el, er]

end Cert.LibDotRows

end
-- ==== Proof.KernelBody.lean ====
/-
  What the kernel's body stores, read index by index.

  The body works on a block of 32 batch rows held as a [32, 64, 256] value. Its four rounds are the same four
  operations each time: the column sums over the 64 agents (a reduction along the middle axis, kept as a
  [32, 1, 256] value and broadcast back), the message, the three-way join to 768 features, and the perceptron — for
  which the block is laid out as a 2048 × 768 matrix (row 64·b + m is agent m of batch row b), multiplied into a zero
  accumulator, shifted by the bias row, cut below, multiplied again, shifted, and laid back as [32, 64, 256]. So the
  stored value is a composition of a few functions of block values (`bodyVal`), and each of them, read at the extended
  reals at an index (b, m, ·), is the row computation of the specification on batch row b: the reshapes only rename
  positions, and a matrix product into the zero accumulator is the plain sum.
-/
import proofs.«170941_j84146999263282_1_alg».proof.Proof.Gen.KernelIdeal.Skeleton
import proofs.«170941_j84146999263282_1_alg».proof.Proof.Spec
import proofs.«170941_j84146999263282_1_alg».proof.Proof.LibDotRows
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Rounds Cert.LibDotRows

/-! ## The body's operations as functions of block values -/

section AnyFloats
variable {F : FTy → Type} [FloatOps F]

/-- The column sums of a block over its 64 agents, laid back over the block. -/
def colSums (h : FVec F S32x64x256 .f32) : FVec F S32x64x256 .f32 :=
  broadcastTo S32x64x256 (shapeCast S32x1x256 (multiReduction .add [1] S32x256 h 0x00000000#32 reduces_S32x64x256_S32x256 (.inl rfl) rfl) shapeCasts_S32x256_S32x1x256) broadcasts_S32x1x256_S32x64x256

/-- The messages of a block: column sums minus own state, scaled. -/
def msgs (h : FVec F S32x64x256 .f32) : FVec F S32x64x256 .f32 :=
  mulf (subf (colSums h) h) (broadcast S32x64x256 (Scalar.ofBits .f32 0x3C820821#32 : F .f32))

/-- The 768 features of every agent of a block. -/
def feats (h h0 : FVec F S32x64x256 .f32) : FVec F S32x64x768 .f32 :=
  concatenate S32x64x768 2 [⟨S32x64x256, h⟩, ⟨S32x64x256, msgs h⟩, ⟨S32x64x256, h0⟩] concatenates_S32x64x256_S32x64x256_S32x64x256_S32x64x768_d2

/-- The first layer's products: the features as a 2048 × 768 matrix times the first weight matrix. -/
def firstDot (x : FVec F S32x64x768 .f32) (W1 : FVec F S768x256 .bf16) : FVec F S2048x256 .f32 :=
  matmul dot_S2048x768_S768x256_S2048x256_1_0_0_1_n_n none (truncf .bf16 (shapeCast S2048x768 x shapeCasts_S32x64x768_S2048x768) bitsLt_bf16_f32) W1 (constant S2048x256 .f32 0x00000000#32)

/-- A bias vector laid along every one of the 2048 rows. -/
def biasRows (b : Vec F S256 .f32) : FVec F S2048x256 .f32 :=
  broadcastTo S2048x256 (shapeCast S1x256 b shapeCasts_S256_S1x256) broadcasts_S1x256_S2048x256

/-- From the first layer's products and its bias rows: cut below, second layer, laid back as a block. -/
def secondLayer (d1 bias1 : FVec F S2048x256 .f32) (W2 : FVec F S256x256 .bf16) (b2 : Vec F S256 .f32) : FVec F S32x64x256 .f32 :=
  shapeCast S32x64x256 (addf (matmul dot_S2048x256_S256x256_S2048x256_1_0_0_1_n_n none (truncf .bf16 (maximumf (addf d1 bias1) (broadcast S2048x256 (Scalar.ofBits .f32 0x00000000#32 : F .f32))) bitsLt_bf16_f32) W2 (constant S2048x256 .f32 0x00000000#32)) (biasRows b2)) shapeCasts_S2048x256_S32x64x256

/-- One round on a block. -/
def roundBlk (W1 : FVec F S768x256 .bf16) (b1 : Vec F S256 .f32) (W2 : FVec F S256x256 .bf16) (b2 : Vec F S256 .f32)
    (h0 h : FVec F S32x64x256 .f32) : FVec F S32x64x256 .f32 :=
  addf h (secondLayer (firstDot (feats h h0) W1) (biasRows b1) W2 b2)

/-- The scores of a block. -/
def scoresBlk (h : FVec F S32x64x256 .f32) (Wd : FVec F S256x16 .bf16) (bd : Vec F S16 .f32) : FVec F S32x64x16 .f32 :=
  shapeCast S32x64x16 (addf (matmul dot_S2048x256_S256x16_S2048x16_1_0_0_1_n_n none (truncf .bf16 (shapeCast S2048x256 h shapeCasts_S32x64x256_S2048x256) bitsLt_bf16_f32) Wd (constant S2048x16 .f32 0x00000000#32)) (broadcastTo S2048x16 (shapeCast S1x16 bd shapeCasts_S16_S1x16) broadcasts_S1x16_S2048x16)) shapeCasts_S2048x16_S32x64x16

/-- The value the body stores, from the seven loaded blocks: four rounds from the loaded states, then the scores. -/
def bodyVal (v0 : Vec F S32x64x256 .f32) (v2 : Vec F S768x256 .f32) (v8 : Vec F S256 .f32) (v4 : Vec F S256x256 .f32)
    (v9 : Vec F S256 .f32) (v6 : Vec F S256x16 .f32) (v10 : Vec F S16 .f32) : FVec F S32x64x16 .f32 :=
  scoresBlk
    (roundBlk (k0_pay3 v2) v8 (k0_pay4 v4) v9 (k0_pay2 v0)
      (roundBlk (k0_pay3 v2) v8 (k0_pay4 v4) v9 (k0_pay2 v0)
        (roundBlk (k0_pay3 v2) v8 (k0_pay4 v4) v9 (k0_pay2 v0)
          (roundBlk (k0_pay3 v2) v8 (k0_pay4 v4) v9 (k0_pay2 v0) (k0_pay2 v0)))))
    (k0_pay5 v6) v10

set_option maxRecDepth 65536 in
/-- The stored payload, as the skeleton composes it, is that value: the definitions unfold to the same operations. -/
theorem pay_eq (v0 : Vec F S32x64x256 .f32) (v2 : Vec F S768x256 .f32) (v8 : Vec F S256 .f32) (v4 : Vec F S256x256 .f32)
    (v9 : Vec F S256 .f32) (v6 : Vec F S256x16 .f32) (v10 : Vec F S16 .f32) :
    k0_pay1 (k0_pay4 v4) (k0_pay5 v6) v9 v10
      (k0_pay8 (k0_pay2 v0) (k0_pay3 v2) (k0_pay4 v4) v8 v9 (k0_pay6 v0 v2 v4 v8 v9) (k0_pay7 v0 v2 v4 v8 v9))
      (k0_pay9 (k0_pay2 v0) (k0_pay3 v2) (k0_pay4 v4) v8 v9 (k0_pay6 v0 v2 v4 v8 v9) (k0_pay7 v0 v2 v4 v8 v9))
      (k0_pay10 v8)
    = bodyVal v0 v2 v8 v4 v9 v6 v10 := rfl

end AnyFloats

/-! ## Read at an index, over the extended reals -/

/-- Row 64·b + m of the 2048-row layout. -/
def rowIx (b : Fin 32) (m : Fin 64) : Fin 2048 := ⟨b.val * 64 + m.val, by have := b.isLt; have := m.isLt; omega⟩

theorem colSums_apply (h : FVec Ideal S32x64x256 .f32) (b : Fin 32) (m : Fin 64) (j : Fin 256) :
    colSums h (ix3 b m j) = ∑ a : Fin 64, h (ix3 b a j) := by
  unfold colSums
  refine (broadcastTo_apply _ broadcasts_S32x1x256_S32x64x256 (ix3 b m j) (ix3 b (0 : Fin 1) j) (fun a => ?_)).trans ?_
  · match a with
    | ⟨0, _⟩ => show b.val = if (32 : Nat) = 1 then 0 else b.val; rw [if_neg (by decide)]
    | ⟨1, _⟩ => show (0 : Nat) = if (1 : Nat) = 1 then 0 else m.val; rw [if_pos rfl]
    | ⟨2, _⟩ => show j.val = if (256 : Nat) = 1 then 0 else j.val; rw [if_neg (by decide)]
  refine (shapeCast_apply _ shapeCasts_S32x256_S32x1x256 (ix3 b (0 : Fin 1) j) (ix2 b j) ?_).trans ?_
  · rw [Shape.rowMajor_val_two, Shape.rowMajor_val_three]
    show b.val * 256 + j.val = (b.val * 1 + 0) * 256 + j.val
    omega
  refine (Ideal.multiReduction_add_single h 0x00000000#32 reduces_S32x64x256_S32x256 (.inl rfl) rfl (ix2 b j)).trans ?_
  exact Finset.sum_congr rfl fun a _ => congrArg h (funext fun x => Fin.ext (by
    match x with
    | ⟨0, _⟩ => rfl
    | ⟨1, _⟩ => rfl
    | ⟨2, _⟩ => rfl))

theorem msgs_apply (P : Params) (hs : P.scale = Ideal.ofBits .f32 0x3C820821#32) (h : FVec Ideal S32x64x256 .f32)
    (b : Fin 32) (m : Fin 64) (j : Fin 256) : msgs h (ix3 b m j) = msg P (rowOf h b) m j := by
  show (colSums h (ix3 b m j) - h (ix3 b m j)) * Ideal.ofBits .f32 0x3C820821#32 = ((∑ a : Fin 64, h (ix3 b a j)) - h (ix3 b m j)) * P.scale
  rw [colSums_apply, hs]

theorem feats_apply (P : Params) (hs : P.scale = Ideal.ofBits .f32 0x3C820821#32) (h h0 : FVec Ideal S32x64x256 .f32)
    (b : Fin 32) (m : Fin 64) (i : Fin 768) : feats h h0 (ix3 b m i) = feat P (rowOf h b) (rowOf h0 b) m i := by
  unfold feats
  by_cases h1 : i.val < 256
  · refine (concatenate_apply_piece _ _ _ (ix3 b m i) 0 (by show (0 : Nat) < 3; omega) S32x64x256 h rfl rfl 0 rfl (ix3 b m (⟨i.val, h1⟩ : Fin 256)) (fun c hc => ?_) ?_).trans
      (feat_lo P (rowOf h b) (rowOf h0 b) m i ⟨i.val, h1⟩ rfl).symm
    · match c with
      | ⟨0, _⟩ => rfl
      | ⟨1, _⟩ => rfl
      | ⟨2, _⟩ => exact absurd (Fin.ext rfl) hc
    · show 0 + i.val = i.val; omega
  · by_cases h2 : i.val < 512
    · refine (concatenate_apply_piece _ _ _ (ix3 b m i) 1 (by show (1 : Nat) < 3; omega) S32x64x256 (msgs h) rfl rfl 256 rfl (ix3 b m (⟨i.val - 256, by omega⟩ : Fin 256)) (fun c hc => ?_) ?_).trans
        ((msgs_apply P hs h b m _).trans (feat_mid P (rowOf h b) (rowOf h0 b) m i ⟨i.val - 256, by omega⟩ (by show i.val = 256 + (i.val - 256); omega)).symm)
      · match c with
        | ⟨0, _⟩ => rfl
        | ⟨1, _⟩ => rfl
        | ⟨2, _⟩ => exact absurd (Fin.ext rfl) hc
      · show 256 + (i.val - 256) = i.val; omega
    · have h3 : i.val < 768 := i.isLt
      refine (concatenate_apply_piece _ _ _ (ix3 b m i) 2 (by show (2 : Nat) < 3; omega) S32x64x256 h0 rfl rfl 512 rfl (ix3 b m (⟨i.val - 512, by omega⟩ : Fin 256)) (fun c hc => ?_) ?_).trans
        (feat_hi P (rowOf h b) (rowOf h0 b) m i ⟨i.val - 512, by omega⟩ (by show i.val = 512 + (i.val - 512); omega)).symm
      · match c with
        | ⟨0, _⟩ => rfl
        | ⟨1, _⟩ => rfl
        | ⟨2, _⟩ => exact absurd (Fin.ext rfl) hc
      · show 512 + (i.val - 512) = i.val; omega

end Cert.KernelIdeal.Body

end
-- ==== Proof.KernelLayers.lean ====
/-
  The kernel's perceptron layers, a whole round, the scores and the stored value, read index by index over the
  extended reals.

  In the 2048-row layout row 64·b + m is agent m of batch row b, so a reshape between [32, 64, k] and [2048, k] reads
  the same number at (b, m, ·) and (64·b + m, ·). Each of the three matrix products goes into the zero accumulator
  and so is the plain sum over the shared axis; rounding the operands to a shorter format is the identity on the
  extended reals. Chaining these, one round of the kernel on a block is the specification's round on each batch row
  of the block, and the stored value is the specification's model of the loaded states' rows.
-/
import proofs.«170941_j84146999263282_1_alg».proof.Proof.KernelBody

noncomputable section

namespace Cert.KernelIdeal.Body

open Cert.KernelIdeal Cert.KernelIdeal.Gen Idealize.ShloMosaic Idealize.ShloMosaic.ValueIdx Cert.Rounds Cert.LibDotRows

/-! ## The three dimension records: which coordinate is which -/

theorem d1_l0 (j : S2048x256.Idx) (q : dot_S2048x768_S768x256_S2048x256_1_0_0_1_n_n.contr.Idx) :
    (dot_S2048x768_S768x256_S2048x256_1_0_0_1_n_n.lhsIdx j q (0 : Fin 2)).val = (j (0 : Fin 2)).val := by
  unfold DotDims.lhsIdx
  rw [dif_neg (show ¬(0 : Fin S2048x768.rank) ∈ dot_S2048x768_S768x256_S2048x256_1_0_0_1_n_n.lhsBatch by decide), dif_pos (show (0 : Fin S2048x768.rank) ∈ dot_S2048x768_S768x256_S2048x256_1_0_0_1_n_n.lhsNonContracting by decide)]
  rfl
theorem d1_r1 (j : S2048x256.Idx) (q : dot_S2048x768_S768x256_S2048x256_1_0_0_1_n_n.contr.Idx) :
    (dot_S2048x768_S768x256_S2048x256_1_0_0_1_n_n.rhsIdx j q (1 : Fin 2)).val = (j (1 : Fin 2)).val := by
  unfold DotDims.rhsIdx
  rw [dif_neg (show ¬(1 : Fin S768x256.rank) ∈ dot_S2048x768_S768x256_S2048x256_1_0_0_1_n_n.rhsBatch by decide), dif_pos (show (1 : Fin S768x256.rank) ∈ dot_S2048x768_S768x256_S2048x256_1_0_0_1_n_n.rhsNonContracting by decide)]
  rfl

theorem d2_l0 (j : S2048x256.Idx) (q : dot_S2048x256_S256x256_S2048x256_1_0_0_1_n_n.contr.Idx) :
    (dot_S2048x256_S256x256_S2048x256_1_0_0_1_n_n.lhsIdx j q (0 : Fin 2)).val = (j (0 : Fin 2)).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem d2_r1 (j : S2048x256.Idx) (q : dot_S2048x256_S256x256_S2048x256_1_0_0_1_n_n.contr.Idx) :
    (dot_S2048x256_S256x256_S2048x256_1_0_0_1_n_n.rhsIdx j q (1 : Fin 2)).val = (j (1 : Fin 2)).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem d3_l0 (j : S2048x16.Idx) (q : dot_S2048x256_S256x16_S2048x16_1_0_0_1_n_n.contr.Idx) :
    (dot_S2048x256_S256x16_S2048x16_1_0_0_1_n_n.lhsIdx j q (0 : Fin 2)).val = (j (0 : Fin 2)).val := by
  unfold DotDims.lhsIdx
  rw [dif_neg (show ¬(0 : Fin S2048x256.rank) ∈ dot_S2048x256_S256x16_S2048x16_1_0_0_1_n_n.lhsBatch by decide), dif_pos (show (0 : Fin S2048x256.rank) ∈ dot_S2048x256_S256x16_S2048x16_1_0_0_1_n_n.lhsNonContracting by decide)]
  rfl
theorem d3_r1 (j : S2048x16.Idx) (q : dot_S2048x256_S256x16_S2048x16_1_0_0_1_n_n.contr.Idx) :
    (dot_S2048x256_S256x16_S2048x16_1_0_0_1_n_n.rhsIdx j q (1 : Fin 2)).val = (j (1 : Fin 2)).val := by
  unfold DotDims.rhsIdx
  rw [dif_neg (show ¬(1 : Fin S256x16.rank) ∈ dot_S2048x256_S256x16_S2048x16_1_0_0_1_n_n.rhsBatch by decide), dif_pos (show (1 : Fin S256x16.rank) ∈ dot_S2048x256_S256x16_S2048x16_1_0_0_1_n_n.rhsNonContracting by decide)]
  rfl

/-! ## The layers -/

/-- The first layer's product at row 64·b + m, column k: the sum over the 768 features of agent m of row b. -/
theorem firstDot_apply (x : FVec Ideal S32x64x768 .f32) (W1 : FVec Ideal S768x256 .bf16) (b : Fin 32) (m : Fin 64) (k : Fin 256) :
    firstDot x W1 (ix2 (rowIx b m) k) = ∑ i : Fin 768, x (ix3 b m i) * W1 (ix2 i k) := by
  unfold firstDot
  refine (matmul_zero_ix2 dot_S2048x768_S768x256_S2048x256_1_0_0_1_n_n none rfl rfl d1_l0
    (fun j q => dot_S2048x768_S768x256_S2048x256_1_0_0_1_n_n.lhsIdx_val_of_single rfl j q)
    (fun j q => dot_S2048x768_S768x256_S2048x256_1_0_0_1_n_n.rhsIdx_val_of_single rfl j q) d1_r1 _ W1 (rowIx b m) k).trans ?_
  refine Finset.sum_congr rfl fun i _ => congrArg (· * W1 (ix2 i k)) ?_
  show shapeCast S2048x768 x shapeCasts_S32x64x768_S2048x768 (ix2 (rowIx b m) i) = x (ix3 b m i)
  refine shapeCast_apply x _ (ix2 (rowIx b m) i) (ix3 b m i) ?_
  rw [Shape.rowMajor_val_three, Shape.rowMajor_val_two]
  rfl

/-- A bias vector laid along the rows reads the vector at the column. -/
theorem biasRows_apply (v : Vec Ideal S256 .f32) (r : Fin 2048) (k : Fin 256) : biasRows v (ix2 r k) = v (ix1 k) := by
  unfold biasRows
  refine (broadcastTo_apply _ broadcasts_S1x256_S2048x256 (ix2 r k) (ix2 (0 : Fin 1) k) (fun a => ?_)).trans ?_
  · match a with
    | ⟨0, _⟩ => show (0 : Nat) = if (1 : Nat) = 1 then 0 else r.val; rw [if_pos rfl]
    | ⟨1, _⟩ => show k.val = if (256 : Nat) = 1 then 0 else k.val; rw [if_neg (by decide)]
  refine shapeCast_apply v _ (ix2 (0 : Fin 1) k) (ix1 k) ?_
  rw [Shape.rowMajor_val_one, Shape.rowMajor_val_two]
  show k.val = 0 * 256 + k.val
  omega

/-- The second layer at (b, m, j), from the first layer's products and bias rows at row 64·b + m. -/
theorem secondLayer_apply (d1 bias1 : FVec Ideal S2048x256 .f32) (W2 : FVec Ideal S256x256 .bf16) (b2 : Vec Ideal S256 .f32)
    (b : Fin 32) (m : Fin 64) (j : Fin 256) :
    secondLayer d1 bias1 W2 b2 (ix3 b m j)
      = (∑ k : Fin 256, max (d1 (ix2 (rowIx b m) k) + bias1 (ix2 (rowIx b m) k)) (Ideal.ofBits .f32 0x00000000#32) * W2 (ix2 k j)) + b2 (ix1 j) := by
  unfold secondLayer
  refine (shapeCast_apply _ shapeCasts_S2048x256_S32x64x256 (ix3 b m j) (ix2 (rowIx b m) j) ?_).trans ?_
  · rw [Shape.rowMajor_val_two, Shape.rowMajor_val_three]
    rfl
  refine congrArg₂ (· + ·) ?_ (biasRows_apply b2 (rowIx b m) j)
  exact matmul_zero_ix2 dot_S2048x256_S256x256_S2048x256_1_0_0_1_n_n none rfl rfl d2_l0
    (fun j q => dot_S2048x256_S256x256_S2048x256_1_0_0_1_n_n.lhsIdx_val_of_single rfl j q)
    (fun j q => dot_S2048x256_S256x256_S2048x256_1_0_0_1_n_n.rhsIdx_val_of_single rfl j q) d2_r1 _ W2 (rowIx b m) j

/-! ## A round, the scores, the stored value -/

section Params
variable (W1 : FVec Ideal S768x256 .bf16) (b1 : Vec Ideal S256 .f32) (W2 : FVec Ideal S256x256 .bf16) (b2 : Vec Ideal S256 .f32)
  (Wd : FVec Ideal S256x16 .bf16) (bd : Vec Ideal S16 .f32)

/-- One round of the kernel on a block is the specification's round on each batch row. -/
theorem roundBlk_apply (h0 h : FVec Ideal S32x64x256 .f32) (b : Fin 32) (m : Fin 64) (j : Fin 256) :
    roundBlk W1 b1 W2 b2 h0 h (ix3 b m j) = round (paramsOf W1 b1 W2 b2 Wd bd) (rowOf h0 b) (rowOf h b) m j := by
  show h (ix3 b m j) + secondLayer (firstDot (feats h h0) W1) (biasRows b1) W2 b2 (ix3 b m j) = _
  rw [secondLayer_apply]
  simp only [firstDot_apply, biasRows_apply, feats_apply (paramsOf W1 b1 W2 b2 Wd bd) rfl]
  rfl

theorem rowOf_roundBlk (h0 h : FVec Ideal S32x64x256 .f32) (b : Fin 32) :
    rowOf (roundBlk W1 b1 W2 b2 h0 h) b = round (paramsOf W1 b1 W2 b2 Wd bd) (rowOf h0 b) (rowOf h b) :=
  funext fun m => funext fun j => roundBlk_apply W1 b1 W2 b2 Wd bd h0 h b m j

/-- The scores of a block are the specification's scores of each batch row. -/
theorem scoresBlk_apply (h : FVec Ideal S32x64x256 .f32) (b : Fin 32) (m : Fin 64) (a : Fin 16) :
    scoresBlk h Wd bd (ix3 b m a) = scores (paramsOf W1 b1 W2 b2 Wd bd) (rowOf h b) m a := by
  unfold scoresBlk
  refine (shapeCast_apply _ shapeCasts_S2048x16_S32x64x16 (ix3 b m a) (ix2 (rowIx b m) a) ?_).trans ?_
  · rw [Shape.rowMajor_val_two, Shape.rowMajor_val_three]
    rfl
  refine congrArg₂ (· + ·) ?_ ?_
  · refine (matmul_zero_ix2 dot_S2048x256_S256x16_S2048x16_1_0_0_1_n_n none rfl rfl d3_l0
      (fun j q => dot_S2048x256_S256x16_S2048x16_1_0_0_1_n_n.lhsIdx_val_of_single rfl j q)
      (fun j q => dot_S2048x256_S256x16_S2048x16_1_0_0_1_n_n.rhsIdx_val_of_single rfl j q) d3_r1 _ Wd (rowIx b m) a).trans ?_
    refine Finset.sum_congr rfl fun k _ => congrArg (· * Wd (ix2 k a)) ?_
    show shapeCast S2048x256 h shapeCasts_S32x64x256_S2048x256 (ix2 (rowIx b m) k) = h (ix3 b m k)
    refine shapeCast_apply h _ (ix2 (rowIx b m) k) (ix3 b m k) ?_
    rw [Shape.rowMajor_val_three, Shape.rowMajor_val_two]
    rfl
  · refine (broadcastTo_apply _ broadcasts_S1x16_S2048x16 (ix2 (rowIx b m) a) (ix2 (0 : Fin 1) a) (fun c => ?_)).trans ?_
    · match c with
      | ⟨0, _⟩ => show (0 : Nat) = if (1 : Nat) = 1 then 0 else (rowIx b m).val; rw [if_pos rfl]
      | ⟨1, _⟩ => show a.val = if (16 : Nat) = 1 then 0 else a.val; rw [if_neg (by decide)]
    refine shapeCast_apply bd _ (ix2 (0 : Fin 1) a) (ix1 a) ?_
    rw [Shape.rowMajor_val_one, Shape.rowMajor_val_two]
    show a.val = 0 * 16 + a.val
    omega

end Params

/-- The value the body stores, at (b, m, a): the specification's model of batch row b of the loaded states, with the
    loaded weights as parameters. -/
theorem bodyVal_apply (v0 : Vec Ideal S32x64x256 .f32) (v2 : Vec Ideal S768x256 .f32) (v8 : Vec Ideal S256 .f32)
    (v4 : Vec Ideal S256x256 .f32) (v9 : Vec Ideal S256 .f32) (v6 : Vec Ideal S256x16 .f32) (v10 : Vec Ideal S16 .f32)
    (b : Fin 32) (m : Fin 64) (a : Fin 16) :
    bodyVal v0 v2 v8 v4 v9 v6 v10 (ix3 b m a) = model (paramsOf v2 v8 v4 v9 v6 v10) (rowOf v0 b) m a := by
  have e0 : k0_pay2 (F := Ideal) v0 = v0 := shapeCast_self v0 _
  have e3 : k0_pay3 (F := Ideal) v2 = v2 := rfl
  have e4 : k0_pay4 (F := Ideal) v4 = v4 := rfl
  have e5 : k0_pay5 (F := Ideal) v6 = v6 := rfl
  unfold bodyVal
  rw [e0, e3, e4, e5, scoresBlk_apply v2 v8 v4 v9 v6 v10]
  simp only [rowOf_roundBlk v2 v8 v4 v9 v6 v10]
  rfl

end Cert.KernelIdeal.Body

end
-- ==== Proof.KernelWhole.lean ====
/-
  From the blocks each grid point writes back to the whole result array.

  Grid point t (of 32) works on batch rows 32·t … 32·t + 31: its states window is block t of the gathered states
  along the first axis, its six weight windows are the whole weight arrays at every point, and it writes back block t
  of the result. Since the stored value at (b, m, a) of the block depends only on batch row b of the states window,
  what point t writes back is block t of ONE whole-array function — the specification's result array of the gathered
  states and the weights as the region finds them — and the 32 blocks tile the array, so the array ends holding that
  function.
-/
import proofs.«170941_j84146999263282_1_alg».proof.Proof.Gen.KernelIdeal.Value
import proofs.«170941_j84146999263282_1_alg».proof.Proof.KernelLayers

noncomputable section

namespace Cert.KernelIdeal.Whole

open Cert.KernelIdeal Cert.KernelIdeal.Gen Idealize.ShloMosaic Idealize.ShloMosaic.TcCoe Idealize.SL.Sem
open Idealize.ShloMosaic.ValueIdx Cert.Rounds Cert.KernelIdeal.Body
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, at an index: the specification's model of the states block's batch row,
    with the loaded weight blocks as parameters. -/
theorem out_eq (x0 : Vec Ideal S32x64x256 .f32) (x1 : Vec Ideal S768x256 .f32) (x2 : Vec Ideal S256 .f32)
    (x3 : Vec Ideal S256x256 .f32) (x4 : Vec Ideal S256 .f32) (x5 : Vec Ideal S256x16 .f32) (x6 : Vec Ideal S16 .f32)
    (y : S32x64x16.Idx) :
    out0_7 x0 x1 x2 x3 x4 x5 x6 y
      = model (paramsOf x1 x2 x3 x4 x5 x6) (rowOf (n := 32) x0 ⟨(y 0).val, (y 0).isLt⟩) ⟨(y 1).val, (y 1).isLt⟩ ⟨(y 2).val, (y 2).isLt⟩ := by
  unfold out0_7
  rw [View.canon_unit_zero hz3]
  simp only [View.ld_unit_zero (S := S32x64x256) hz3, View.ld_unit_zero (S := S768x256) hz2, View.ld_unit_zero (S := S256x256) hz2,
    View.ld_unit_zero (S := S256x16) hz2, View.ld_unit_zero (S := S256) hz1, View.ld_unit_zero (S := S16) hz1]
  rw [pay_eq]
  obtain ⟨b, mm, a, rfl⟩ : ∃ (b : Fin 32) (mm : Fin 64) (a : Fin 16), y = ix3 b mm a := ⟨y 0, y 1, y 2, eq_ix3 y⟩
  exact bodyVal_apply x0 x1 x2 x3 x4 x5 x6 b mm a

/-- The printed index maps, decided over the 32 grid points: the states window moves with the output window along the
    first axis and nowhere else; every weight window stays at block 0. -/
theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0 ∧ win0_7.index t (0 : Fin 3) ≤ 31
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every block of the result along the first axis is SOME point's. -/
theorem idx_onto : ∀ q : Fin 32, ∃ t : Fin cfg0.N, win0_7.index t = ![q.val, 0, 0] :=
  (by decide +kernel : ∀ q : Fin 32, ∃ t : Fin grid0.N, win0_7.index t = ![q.val, 0, 0])

/-! ## The input windows' blocks: the weights whole, the states block t -/

theorem blk1 (c : Dev nD) (t : Fin cfg0.N) : iblk m c 1 t = V m c main_arg2 := by
  obtain ⟨e0, e1, e2, e3, e4, e5, f10, f11, f20, f30, f31, f40, f50, f51, f60⟩ := idx_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 768 + 1 * (y 0).val = (y 0).val; omega
  | ⟨1, _⟩ => show win0_1.index t (1 : Fin 2) * 256 + 1 * (y 1).val = (y 1).val; omega

theorem blk2 (c : Dev nD) (t : Fin cfg0.N) : iblk m c 2 t = V m c main_arg3 := by
  obtain ⟨e0, e1, e2, e3, e4, e5, f10, f11, f20, f30, f31, f40, f50, f51, f60⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 1) * 256 + 1 * (y 0).val = (y 0).val; omega

theorem blk3 (c : Dev nD) (t : Fin cfg0.N) : iblk m c 3 t = V m c main_arg4 := by
  obtain ⟨e0, e1, e2, e3, e4, e5, f10, f11, f20, f30, f31, f40, f50, f51, f60⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem blk4 (c : Dev nD) (t : Fin cfg0.N) : iblk m c 4 t = V m c main_arg5 := by
  obtain ⟨e0, e1, e2, e3, e4, e5, f10, f11, f20, f30, f31, f40, f50, f51, f60⟩ := idx_facts t
  funext y
  show V m c main_arg5 (((cfg0.win 4).blk t).view.emb y) = V m c main_arg5 y
  refine congrArg (V m c main_arg5) (funext fun a => Fin.ext ?_)
  match a with
  | ⟨0, _⟩ => show win0_4.index t (0 : Fin 1) * 256 + 1 * (y 0).val = (y 0).val; omega

theorem blk5 (c : Dev nD) (t : Fin cfg0.N) : iblk m c 5 t = V m c main_arg6 := by
  obtain ⟨e0, e1, e2, e3, e4, e5, f10, f11, f20, f30, f31, f40, f50, f51, f60⟩ := idx_facts t
  funext y
  show V m c main_arg6 (((cfg0.win 5).blk t).view.emb y) = V m c main_arg6 y
  refine congrArg (V m c main_arg6) (funext fun a => Fin.ext ?_)
  match a with
  | ⟨0, _⟩ => show win0_5.index t (0 : Fin 2) * 256 + 1 * (y 0).val = (y 0).val; omega
  | ⟨1, _⟩ => show win0_5.index t (1 : Fin 2) * 16 + 1 * (y 1).val = (y 1).val; omega

theorem blk6 (c : Dev nD) (t : Fin cfg0.N) : iblk m c 6 t = V m c main_arg7 := by
  obtain ⟨e0, e1, e2, e3, e4, e5, f10, f11, f20, f30, f31, f40, f50, f51, f60⟩ := idx_facts t
  funext y
  show V m c main_arg7 (((cfg0.win 6).blk t).view.emb y) = V m c main_arg7 y
  refine congrArg (V m c main_arg7) (funext fun a => Fin.ext ?_)
  match a with
  | ⟨0, _⟩ => show win0_6.index t (0 : Fin 1) * 16 + 1 * (y 0).val = (y 0).val; omega

/-- Batch row `y 0` of the states window's block at point t is batch row 32·t + `y 0` of the gathered states: the row the
    output block's index `y` lands on. -/
theorem blk0 (c : Dev nD) (t : Fin cfg0.N) (y : S32x64x16.Idx) :
    rowOf (n := 32) (iblk m c 0 t) ⟨(y 0).val, (y 0).isLt⟩
      = rowOf (n := 1024) (V m c main_v6) ⟨((((cfg0.win 7).blk t).view.emb y) 0).val, ((((cfg0.win 7).blk t).view.emb y) 0).isLt⟩ := by
  obtain ⟨e0, e1, e2, e3, e4, e5, f10, f11, f20, f30, f31, f40, f50, f51, f60⟩ := idx_facts t
  funext mm j
  show V m c main_v6 (((cfg0.win 0).blk t).view.emb (ix3 (⟨(y 0).val, (y 0).isLt⟩ : Fin 32) mm j)) = V m c main_v6 (ix3 _ mm j)
  refine congrArg (V m c main_v6) (funext fun a => Fin.ext ?_)
  match a with
  | ⟨0, _⟩ => show win0_0.index t (0 : Fin 3) * 32 + 1 * (y 0).val = win0_7.index t (0 : Fin 3) * 32 + 1 * (y 0).val; omega
  | ⟨1, _⟩ => show win0_0.index t (1 : Fin 3) * 64 + 1 * mm.val = mm.val; omega
  | ⟨2, _⟩ => show win0_0.index t (2 : Fin 3) * 256 + 1 * j.val = j.val; omega

/-! ## The whole array -/

/-- What the result array ends holding: the specification's result array of the gathered states and the weights, as the
    region finds them. -/
abbrev G (c : Dev nD) : S1024x64x16.Idx → Elt Ideal .f32 :=
  result (V m c main_v6) (V m c main_arg2) (V m c main_arg3) (V m c main_arg4) (V m c main_arg5) (V m c main_arg6) (V m c main_arg7)

/-- WHAT POINT `t` WRITES BACK is block `t` of that array. -/
theorem flushed_eq (c : Dev nD) (t : Fin cfg0.N) :
    (dats m 0 c).flushed 7 t = ((cfg0.win 7).blk t).view.read (Elt Ideal) (G m c) := by
  rw [Value.flushed7]
  obtain ⟨e0, e1, e2, e3, e4, e5, f10, f11, f20, f30, f31, f40, f50, f51, f60⟩ := idx_facts t
  funext y
  show out0_7 (iblk m c 0 t) (iblk m c 1 t) (iblk m c 2 t) (iblk m c 3 t) (iblk m c 4 t) (iblk m c 5 t) (iblk m c 6 t) y
    = G m c (((cfg0.win 7).blk t).view.emb y)
  rw [out_eq, blk1 m c t, blk2 m c t, blk3 m c t, blk4 m c t, blk5 m c t, blk6 m c t, blk0 m c t y]
  have h1 : (⟨(y 1).val, (y 1).isLt⟩ : Fin 64) = ⟨((((cfg0.win 7).blk t).view.emb y) 1).val, ((((cfg0.win 7).blk t).view.emb y) 1).isLt⟩ :=
    Fin.ext (by show (y 1).val = win0_7.index t (1 : Fin 3) * 64 + 1 * (y 1).val; omega)
  have h2 : (⟨(y 2).val, (y 2).isLt⟩ : Fin 16) = ⟨((((cfg0.win 7).blk t).view.emb y) 2).val, ((((cfg0.win 7).blk t).view.emb y) 2).isLt⟩ :=
    Fin.ext (by show (y 2).val = win0_7.index t (2 : Fin 3) * 16 + 1 * (y 2).val; omega)
  rw [h1, h2]
  rfl

/-- An index of the array is in point `t`'s block iff each coordinate is in the block's range on its axis. -/
theorem mem_blk (t : Fin cfg0.N) (i : S1024x64x16.Idx) :
    i ∈ ((cfg0.win 7).blk t).view.set ↔ ∀ a : Fin 3, win0_7.index t a * S32x64x16.size a ≤ (i a).val ∧ (i a).val < win0_7.index t a * S32x64x16.size a + S32x64x16.size a := by
  show i ∈ ((View.whole main_v7).slice (win0_7.rect t)).set ↔ _
  rw [View.set_slice_whole, Rect.mem_set_unit]
  exact Iff.rfl

/-- Every index of the array is in some point's block: the one of its batch row's tile. -/
theorem cover (i : S1024x64x16.Idx) : ∃ t : Fin cfg0.N, (cfg0.win 7).flush t = true ∧ i ∈ ((cfg0.win 7).blk t).view.set := by
  have hi0 : (i 0).val < 1024 := (i 0).isLt
  have hi1 : (i 1).val < 64 := (i 1).isLt
  have hi2 : (i 2).val < 16 := (i 2).isLt
  obtain ⟨t, ht⟩ := idx_onto ⟨(i 0).val / 32, by omega⟩
  have q0 : win0_7.index t (0 : Fin 3) = (i 0).val / 32 := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 64 ≤ (i 1).val ∧ (i 1).val < win0_7.index t (1 : Fin 3) * 64 + 64; omega
  | ⟨2, _⟩ => show win0_7.index t (2 : Fin 3) * 16 ≤ (i 2).val ∧ (i 2).val < win0_7.index t (2 : Fin 3) * 16 + 16; omega

/-- THE ARRAY after the run. -/
theorem final (c : Dev nD) : (dats m 0 c).arrAt 7 cfg0.N = G m c :=
  (dats m 0 c).arrAt_eq_of_cover 7 (G m c) (fun t _ => flushed_eq m c t) cover

end Cert.KernelIdeal.Whole

end
-- ==== Proof.KernelRun.lean ====
/-
  The kernel's run, with the result array named as a function of the arguments.

  Before the region @main gathers the initial states from the table (the host operations in front of the call), so the
  states array the region finds is that gather of the first two arguments; the weights it finds are the arguments
  themselves. The frame run's result array is therefore the specification's result array of the gathered states and
  the weights.
-/
import proofs.«170941_j84146999263282_1_alg».proof.Proof.KernelWhole
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx Cert.Rounds Cert.KernelIdeal.Body

/-- The gathered initial states: row `ids (b, m)` of the table (a negative id counted from the end), for every agent. -/
def gathered {F : FTy → Type} [FloatOps F] (ids : (⟨S1024x64, .i32⟩ : BufTy).Contents (Elt F)) (emb : (⟨S1000x256, .f32⟩ : BufTy).Contents (Elt F)) :
    (⟨S1024x64x256, .f32⟩ : BufTy).Contents (Elt F) :=
  Host.gather gather_S1000x256_S1024x64x1_S1024x64x256_2_0_n_n_0_2_1256 emb
    (broadcastInDim S1024x64x1 ![0, 1] bcast_S1024x64_S1024x64x1_0_1
      (select (cmpi .slt ids (broadcastInDim S1024x64 ![] bcast_S_S1024x64 (constantI S_ 32 0#32)))
        (addi ids (broadcastInDim S1024x64 ![] bcast_S_S1024x64 (constantI S_ 32 1000#32))) ids))

variable (m : (ℓ : Loc nD τ sig) → Buf (Elt Ideal) ℓ) (ρ : Dev nD → PrngReg)

/-- The states array as the region finds it is the gather of the first two arguments. -/
theorem V_main_v6 (c : Dev nD) :
    (V m c main_v6 : S1024x64x256.Idx → EReal)
      = gathered (F := Ideal) (m ((c : Thread nD τ).loc main_arg0)) (m ((c : Thread nD τ).loc main_arg1)) := by
  dsimp only [Gen.V, Gen.hostOps0]
  after_results
  rfl

/-- The result array as a function of the arguments. -/
theorem G_eq (c : Dev nD) :
    G m c = result (gathered (F := Ideal) (m ((c : Thread nD τ).loc main_arg0)) (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  show result (V m c main_v6) (V m c main_arg2) (V m c main_arg3) (V m c main_arg4) (V m c main_arg5) (V m c main_arg6) (V m c main_arg7) = _
  rw [V_main_v6 m c, V_main_arg2 m c, V_main_arg3 m c, V_main_arg4 m c, V_main_arg5 m c, V_main_arg6 m c, V_main_arg7 m c]

/-- The frame run re-posted: the result array at the specification's result array of the arguments, the arguments
    unchanged. -/
theorem run : θ_run defs (onTc (τ := τ) (main (F := Ideal))) ⟨m, fun _ => 0, ρ⟩ fun r => ∀ c : Dev nD,
      r.2.mem ((c : Thread nD τ).loc main_v7)
        = result (gathered (F := Ideal) (m ((c : Thread nD τ).loc main_arg0)) (m ((c : Thread nD τ).loc main_arg1)))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩) (Cert.KernelIdeal.Value.run_blocks m ρ)

end Cert.KernelIdeal.Whole

end
-- ==== Proof.RefBody.lean ====
/-
  What the reference computes, read index by index.

  The reference works on the whole [1024, 64, 256] array of gathered states. Its four rounds are the same host
  operations each time: the column sums over the 64 agents (a sum along the middle axis from the initial value
  zero, broadcast back in two steps), the message, the three-way join to 768 features, and the perceptron as two
  contractions of the last axis with a weight matrix's first axis, each shifted by a bias broadcast in two steps,
  the first cut below. So its result is a composition of a few functions of whole arrays (`refVal`), and each of
  them, read at the extended reals at an index (b, m, ·), is the row computation of the specification on batch
  row b: a host sum from zero is the plain sum, and a host contraction is the plain sum over the shared axis.
-/
import proofs.«170941_j84146999263282_1_alg».proof.Proof.Gen.ReferenceIdeal
import proofs.«170941_j84146999263282_1_alg».proof.Proof.Spec
import proofs.«170941_j84146999263282_1_alg».proof.Proof.LibDotRows
import Idealize.ShloMosaic.Lib.Pipeline.Value
import Idealize.ShloMosaic.Lib.ValueIdx
import Idealize.ShloMosaic.PureOps.Ideal.Laws

noncomputable section

namespace Cert.ReferenceIdeal.Body

open Cert.ReferenceIdeal Cert.ReferenceIdeal.Gen Idealize.ShloMosaic Idealize.ShloMosaic.ValueIdx Cert.Rounds Cert.LibDotRows

/-! ## The reference's operations as functions of whole arrays -/

section AnyFloats
variable {F : FTy → Type} [FloatOps F]

/-- The gathered initial states: row `ids (b, m)` of the table (a negative id counted from the end), for every agent. -/
def gathered (ids : (⟨S1024x64, .i32⟩ : BufTy).Contents (Elt F)) (emb : (⟨S1000x256, .f32⟩ : BufTy).Contents (Elt F)) :
    (⟨S1024x64x256, .f32⟩ : BufTy).Contents (Elt F) :=
  Host.gather gather_S1000x256_S1024x64x1_S1024x64x256_2_0_n_n_0_2_1256 emb
    (broadcastInDim S1024x64x1 ![0, 1] bcast_S1024x64_S1024x64x1_0_1
      (select (cmpi .slt ids (broadcastInDim S1024x64 ![] bcast_S_S1024x64 (constantI S_ 32 0#32)))
        (addi ids (broadcastInDim S1024x64 ![] bcast_S_S1024x64 (constantI S_ 32 1000#32))) ids))

/-- The column sums of the array over its 64 agents, laid back over the array. -/
def colSums (h : FVec F S1024x64x256 .f32) : FVec F S1024x64x256 .f32 :=
  broadcastInDim S1024x64x256 ![0, 1, 2] bcast_S1024x1x256_S1024x64x256_0_1_2
    (broadcastInDim S1024x1x256 ![0, 2] bcast_S1024x256_S1024x1x256_0_2
      (Host.reduceAdd h (constant S_ .f32 0x00000000#32) reducesTo_S1024x64x256_S1024x256_d1 h_S_))

/-- The messages: column sums minus own state, scaled. -/
def msgs (h : FVec F S1024x64x256 .f32) : FVec F S1024x64x256 .f32 :=
  mulf (subf (colSums h) h) (broadcastInDim S1024x64x256 ![] bcast_S_S1024x64x256 (constant S_ .f32 0x3C820821#32))

/-- The 768 features of every agent. -/
def feats (h h0 : FVec F S1024x64x256 .f32) : FVec F S1024x64x768 .f32 :=
  concatenate S1024x64x768 2 [⟨S1024x64x256, h⟩, ⟨S1024x64x256, msgs h⟩, ⟨S1024x64x256, h0⟩] concatenates_S1024x64x256_S1024x64x256_S1024x64x256_S1024x64x768_d2

/-- A bias vector laid along the last axis of the whole array. -/
def biasAll (v : FVec F S256 .f32) : FVec F S1024x64x256 .f32 :=
  broadcastInDim S1024x64x256 ![0, 1, 2] bcast_S1x1x256_S1024x64x256_0_1_2 (broadcastInDim S1x1x256 ![2] bcast_S256_S1x1x256_2 v)

/-- The hidden layer on every agent's features. -/
def hiddenAll (x : FVec F S1024x64x768 .f32) (W1 : FVec F S768x256 .f32) (b1 : FVec F S256 .f32) : FVec F S1024x64x256 .f32 :=
  maximumf (addf (Host.dotGeneral dot_S1024x64x768_S768x256_S1024x64x256_2_0_01_1_n_n none x W1) (biasAll b1))
    (broadcastInDim S1024x64x256 ![] bcast_S_S1024x64x256 (constant S_ .f32 0x00000000#32))

/-- One round on the whole array. -/
def roundAll (W1 : FVec F S768x256 .f32) (b1 : FVec F S256 .f32) (W2 : FVec F S256x256 .f32) (b2 : FVec F S256 .f32)
    (h0 h : FVec F S1024x64x256 .f32) : FVec F S1024x64x256 .f32 :=
  addf h (addf (Host.dotGeneral dot_S1024x64x256_S256x256_S1024x64x256_2_0_01_1_n_n none (hiddenAll (feats h h0) W1 b1) W2) (biasAll b2))

/-- The scores of every agent. -/
def scoresAll (h : FVec F S1024x64x256 .f32) (Wd : FVec F S256x16 .f32) (bd : FVec F S16 .f32) : FVec F S1024x64x16 .f32 :=
  addf (Host.dotGeneral dot_S1024x64x256_S256x16_S1024x64x16_2_0_01_1_n_n none h Wd)
    (broadcastInDim S1024x64x16 ![0, 1, 2] bcast_S1x1x16_S1024x64x16_0_1_2 (broadcastInDim S1x1x16 ![2] bcast_S16_S1x1x16_2 bd))

/-- The reference's result from gathered states and weights: four rounds, then the scores. -/
def refVal (h0 : FVec F S1024x64x256 .f32) (W1 : FVec F S768x256 .f32) (b1 : FVec F S256 .f32) (W2 : FVec F S256x256 .f32)
    (b2 : FVec F S256 .f32) (Wd : FVec F S256x16 .f32) (bd : FVec F S16 .f32) : FVec F S1024x64x16 .f32 :=
  scoresAll (roundAll W1 b1 W2 b2 h0 (roundAll W1 b1 W2 b2 h0 (roundAll W1 b1 W2 b2 h0 (roundAll W1 b1 W2 b2 h0 h0)))) Wd bd

end AnyFloats

/-! ## The three dimension records: which coordinate is which -/

theorem da_l0 (j : S1024x64x256.Idx) (q : dot_S1024x64x768_S768x256_S1024x64x256_2_0_01_1_n_n.contr.Idx) : (dot_S1024x64x768_S768x256_S1024x64x256_2_0_01_1_n_n.lhsIdx j q (0 : Fin 3)).val = (j (0 : Fin 3)).val := by
  unfold DotDims.lhsIdx
  rw [dif_neg (show ¬(0 : Fin S1024x64x768.rank) ∈ dot_S1024x64x768_S768x256_S1024x64x256_2_0_01_1_n_n.lhsBatch by decide), dif_pos (show (0 : Fin S1024x64x768.rank) ∈ dot_S1024x64x768_S768x256_S1024x64x256_2_0_01_1_n_n.lhsNonContracting by decide)]
  rfl
theorem da_l1 (j : S1024x64x256.Idx) (q : dot_S1024x64x768_S768x256_S1024x64x256_2_0_01_1_n_n.contr.Idx) : (dot_S1024x64x768_S768x256_S1024x64x256_2_0_01_1_n_n.lhsIdx j q (1 : Fin 3)).val = (j (1 : Fin 3)).val := by
  unfold DotDims.lhsIdx
  rw [dif_neg (show ¬(1 : Fin S1024x64x768.rank) ∈ dot_S1024x64x768_S768x256_S1024x64x256_2_0_01_1_n_n.lhsBatch by decide), dif_pos (show (1 : Fin S1024x64x768.rank) ∈ dot_S1024x64x768_S768x256_S1024x64x256_2_0_01_1_n_n.lhsNonContracting by decide)]
  rfl
theorem da_r1 (j : S1024x64x256.Idx) (q : dot_S1024x64x768_S768x256_S1024x64x256_2_0_01_1_n_n.contr.Idx) : (dot_S1024x64x768_S768x256_S1024x64x256_2_0_01_1_n_n.rhsIdx j q (1 : Fin 2)).val = (j (2 : Fin 3)).val := by
  unfold DotDims.rhsIdx
  rw [dif_neg (show ¬(1 : Fin S768x256.rank) ∈ dot_S1024x64x768_S768x256_S1024x64x256_2_0_01_1_n_n.rhsBatch by decide), dif_pos (show (1 : Fin S768x256.rank) ∈ dot_S1024x64x768_S768x256_S1024x64x256_2_0_01_1_n_n.rhsNonContracting by decide)]
  rfl

theorem db_l0 (j : S1024x64x256.Idx) (q : dot_S1024x64x256_S256x256_S1024x64x256_2_0_01_1_n_n.contr.Idx) : (dot_S1024x64x256_S256x256_S1024x64x256_2_0_01_1_n_n.lhsIdx j q (0 : Fin 3)).val = (j (0 : Fin 3)).val := by
  unfold DotDims.lhsIdx
  rw [dif_neg (show ¬(0 : Fin S1024x64x256.rank) ∈ dot_S1024x64x256_S256x256_S1024x64x256_2_0_01_1_n_n.lhsBatch by decide), dif_pos (show (0 : Fin S1024x64x256.rank) ∈ dot_S1024x64x256_S256x256_S1024x64x256_2_0_01_1_n_n.lhsNonContracting by decide)]
  rfl
theorem db_l1 (j : S1024x64x256.Idx) (q : dot_S1024x64x256_S256x256_S1024x64x256_2_0_01_1_n_n.contr.Idx) : (dot_S1024x64x256_S256x256_S1024x64x256_2_0_01_1_n_n.lhsIdx j q (1 : Fin 3)).val = (j (1 : Fin 3)).val := by
  unfold DotDims.lhsIdx
  rw [dif_neg (show ¬(1 : Fin S1024x64x256.rank) ∈ dot_S1024x64x256_S256x256_S1024x64x256_2_0_01_1_n_n.lhsBatch by decide), dif_pos (show (1 : Fin S1024x64x256.rank) ∈ dot_S1024x64x256_S256x256_S1024x64x256_2_0_01_1_n_n.lhsNonContracting by decide)]
  rfl
theorem db_r1 (j : S1024x64x256.Idx) (q : dot_S1024x64x256_S256x256_S1024x64x256_2_0_01_1_n_n.contr.Idx) : (dot_S1024x64x256_S256x256_S1024x64x256_2_0_01_1_n_n.rhsIdx j q (1 : Fin 2)).val = (j (2 : Fin 3)).val := by
  unfold DotDims.rhsIdx
  rw [dif_neg (show ¬(1 : Fin S256x256.rank) ∈ dot_S1024x64x256_S256x256_S1024x64x256_2_0_01_1_n_n.rhsBatch by decide), dif_pos (show (1 : Fin S256x256.rank) ∈ dot_S1024x64x256_S256x256_S1024x64x256_2_0_01_1_n_n.rhsNonContracting by decide)]
  rfl

theorem dc_l0 (j : S1024x64x16.Idx) (q : dot_S1024x64x256_S256x16_S1024x64x16_2_0_01_1_n_n.contr.Idx) : (dot_S1024x64x256_S256x16_S1024x64x16_2_0_01_1_n_n.lhsIdx j q (0 : Fin 3)).val = (j (0 : Fin 3)).val := by
  unfold DotDims.lhsIdx
  rw [dif_neg (show ¬(0 : Fin S1024x64x256.rank) ∈ dot_S1024x64x256_S256x16_S1024x64x16_2_0_01_1_n_n.lhsBatch by decide), dif_pos (show (0 : Fin S1024x64x256.rank) ∈ dot_S1024x64x256_S256x16_S1024x64x16_2_0_01_1_n_n.lhsNonContracting by decide)]
  rfl
theorem dc_l1 (j : S1024x64x16.Idx) (q : dot_S1024x64x256_S256x16_S1024x64x16_2_0_01_1_n_n.contr.Idx) : (dot_S1024x64x256_S256x16_S1024x64x16_2_0_01_1_n_n.lhsIdx j q (1 : Fin 3)).val = (j (1 : Fin 3)).val := by
  unfold DotDims.lhsIdx
  rw [dif_neg (show ¬(1 : Fin S1024x64x256.rank) ∈ dot_S1024x64x256_S256x16_S1024x64x16_2_0_01_1_n_n.lhsBatch by decide), dif_pos (show (1 : Fin S1024x64x256.rank) ∈ dot_S1024x64x256_S256x16_S1024x64x16_2_0_01_1_n_n.lhsNonContracting by decide)]
  rfl
theorem dc_r1 (j : S1024x64x16.Idx) (q : dot_S1024x64x256_S256x16_S1024x64x16_2_0_01_1_n_n.contr.Idx) : (dot_S1024x64x256_S256x16_S1024x64x16_2_0_01_1_n_n.rhsIdx j q (1 : Fin 2)).val = (j (2 : Fin 3)).val := by
  unfold DotDims.rhsIdx
  rw [dif_neg (show ¬(1 : Fin S256x16.rank) ∈ dot_S1024x64x256_S256x16_S1024x64x16_2_0_01_1_n_n.rhsBatch by decide), dif_pos (show (1 : Fin S256x16.rank) ∈ dot_S1024x64x256_S256x16_S1024x64x16_2_0_01_1_n_n.rhsNonContracting by decide)]
  rfl

/-! ## Read at an index, over the extended reals -/

theorem colSums_apply (h : FVec Ideal S1024x64x256 .f32) (b : Fin 1024) (m : Fin 64) (j : Fin 256) :
    colSums h (ix3 b m j) = ∑ a : Fin 64, h (ix3 b a j) := by
  unfold colSums
  refine (broadcastInDim_apply _ bcast_S1024x1x256_S1024x64x256_0_1_2 _ (ix3 b m j) (ix3 b (0 : Fin 1) j) (fun a => ?_)).trans ?_
  · match a with
    | ⟨0, _⟩ => show b.val = if (1024 : Nat) = 1 then 0 else b.val; rw [if_neg (by decide)]
    | ⟨1, _⟩ => show (0 : Nat) = if (1 : Nat) = 1 then 0 else m.val; rw [if_pos rfl]
    | ⟨2, _⟩ => show j.val = if (256 : Nat) = 1 then 0 else j.val; rw [if_neg (by decide)]
  refine (broadcastInDim_apply _ bcast_S1024x256_S1024x1x256_0_2 _ (ix3 b (0 : Fin 1) j) (ix2 b j) (fun a => ?_)).trans ?_
  · match a with
    | ⟨0, _⟩ => show b.val = if (1024 : Nat) = 1 then 0 else b.val; rw [if_neg (by decide)]
    | ⟨1, _⟩ => show j.val = if (256 : Nat) = 1 then 0 else j.val; rw [if_neg (by decide)]
  simp only [Host.reduceAdd, Ideal.hostReduceAdd_def]
  rw [Ideal.hostReduceAdd_single reducesTo_S1024x64x256_S1024x256_d1 (by decide)]
  show Ideal.ofBits .f32 0x00000000#32 + _ = _
  rw [Ideal.ofBits_zero_f32, zero_add]
  exact Finset.sum_congr rfl fun a _ => congrArg h (funext fun x => Fin.ext (by
    match x with
    | ⟨0, _⟩ => rfl
    | ⟨1, _⟩ => rfl
    | ⟨2, _⟩ => rfl))

theorem msgs_apply (P : Params) (hs : P.scale = Ideal.ofBits .f32 0x3C820821#32) (h : FVec Ideal S1024x64x256 .f32)
    (b : Fin 1024) (m : Fin 64) (j : Fin 256) : msgs h (ix3 b m j) = msg P (rowOf h b) m j := by
  show (colSums h (ix3 b m j) - h (ix3 b m j)) * Ideal.ofBits .f32 0x3C820821#32 = ((∑ a : Fin 64, h (ix3 b a j)) - h (ix3 b m j)) * P.scale
  rw [colSums_apply, hs]

theorem feats_apply (P : Params) (hs : P.scale = Ideal.ofBits .f32 0x3C820821#32) (h h0 : FVec Ideal S1024x64x256 .f32)
    (b : Fin 1024) (m : Fin 64) (i : Fin 768) : feats h h0 (ix3 b m i) = feat P (rowOf h b) (rowOf h0 b) m i := by
  unfold feats
  by_cases h1 : i.val < 256
  · refine (concatenate_apply_piece _ _ _ (ix3 b m i) 0 (by show (0 : Nat) < 3; omega) S1024x64x256 h rfl rfl 0 rfl (ix3 b m (⟨i.val, h1⟩ : Fin 256)) (fun c hc => ?_) ?_).trans
      (feat_lo P (rowOf h b) (rowOf h0 b) m i ⟨i.val, h1⟩ rfl).symm
    · match c with
      | ⟨0, _⟩ => rfl
      | ⟨1, _⟩ => rfl
      | ⟨2, _⟩ => exact absurd (Fin.ext rfl) hc
    · show 0 + i.val = i.val; omega
  · by_cases h2 : i.val < 512
    · refine (concatenate_apply_piece _ _ _ (ix3 b m i) 1 (by show (1 : Nat) < 3; omega) S1024x64x256 (msgs h) rfl rfl 256 rfl (ix3 b m (⟨i.val - 256, by omega⟩ : Fin 256)) (fun c hc => ?_) ?_).trans
        ((msgs_apply P hs h b m _).trans (feat_mid P (rowOf h b) (rowOf h0 b) m i ⟨i.val - 256, by omega⟩ (by show i.val = 256 + (i.val - 256); omega)).symm)
      · match c with
        | ⟨0, _⟩ => rfl
        | ⟨1, _⟩ => rfl
        | ⟨2, _⟩ => exact absurd (Fin.ext rfl) hc
      · show 256 + (i.val - 256) = i.val; omega
    · have h3 : i.val < 768 := i.isLt
      refine (concatenate_apply_piece _ _ _ (ix3 b m i) 2 (by show (2 : Nat) < 3; omega) S1024x64x256 h0 rfl rfl 512 rfl (ix3 b m (⟨i.val - 512, by omega⟩ : Fin 256)) (fun c hc => ?_) ?_).trans
        (feat_hi P (rowOf h b) (rowOf h0 b) m i ⟨i.val - 512, by omega⟩ (by show i.val = 512 + (i.val - 512); omega)).symm
      · match c with
        | ⟨0, _⟩ => rfl
        | ⟨1, _⟩ => rfl
        | ⟨2, _⟩ => exact absurd (Fin.ext rfl) hc
      · show 512 + (i.val - 512) = i.val; omega

/-- A bias vector laid along the last axis reads the vector at the last coordinate. -/
theorem biasAll_apply (v : FVec Ideal S256 .f32) (b : Fin 1024) (m : Fin 64) (j : Fin 256) : biasAll v (ix3 b m j) = v (ix1 j) := by
  unfold biasAll
  refine (broadcastInDim_apply _ bcast_S1x1x256_S1024x64x256_0_1_2 _ (ix3 b m j) (ix3 (0 : Fin 1) (0 : Fin 1) j) (fun a => ?_)).trans ?_
  · match a with
    | ⟨0, _⟩ => show (0 : Nat) = if (1 : Nat) = 1 then 0 else b.val; rw [if_pos rfl]
    | ⟨1, _⟩ => show (0 : Nat) = if (1 : Nat) = 1 then 0 else m.val; rw [if_pos rfl]
    | ⟨2, _⟩ => show j.val = if (256 : Nat) = 1 then 0 else j.val; rw [if_neg (by decide)]
  refine broadcastInDim_apply _ bcast_S256_S1x1x256_2 v (ix3 (0 : Fin 1) (0 : Fin 1) j) (ix1 j) (fun a => ?_)
  match a with
  | ⟨0, _⟩ => show j.val = if (256 : Nat) = 1 then 0 else j.val; rw [if_neg (by decide)]

section Params
variable (W1 : FVec Ideal S768x256 .f32) (b1 : FVec Ideal S256 .f32) (W2 : FVec Ideal S256x256 .f32) (b2 : FVec Ideal S256 .f32)
  (Wd : FVec Ideal S256x16 .f32) (bd : FVec Ideal S16 .f32)

/-- One round of the reference on the whole array is the specification's round on each batch row. -/
theorem roundAll_apply (h0 h : FVec Ideal S1024x64x256 .f32) (b : Fin 1024) (m : Fin 64) (j : Fin 256) :
    roundAll W1 b1 W2 b2 h0 h (ix3 b m j) = round (paramsOf W1 b1 W2 b2 Wd bd) (rowOf h0 b) (rowOf h b) m j := by
  show h (ix3 b m j) + (Host.dotGeneral dot_S1024x64x256_S256x256_S1024x64x256_2_0_01_1_n_n none (hiddenAll (feats h h0) W1 b1) W2 (ix3 b m j) + biasAll b2 (ix3 b m j)) = _
  rw [dotGeneral_ix3 dot_S1024x64x256_S256x256_S1024x64x256_2_0_01_1_n_n none rfl rfl db_l0 db_l1
      (fun j q => dot_S1024x64x256_S256x256_S1024x64x256_2_0_01_1_n_n.lhsIdx_val_of_single rfl j q) (fun j q => dot_S1024x64x256_S256x256_S1024x64x256_2_0_01_1_n_n.rhsIdx_val_of_single rfl j q) db_r1, biasAll_apply]
  have hh : ∀ k : Fin 256, hiddenAll (feats h h0) W1 b1 (ix3 b m k)
      = hidden (paramsOf W1 b1 W2 b2 Wd bd) (feat (paramsOf W1 b1 W2 b2 Wd bd) (rowOf h b) (rowOf h0 b) m) k := fun k => by
    show max (Host.dotGeneral dot_S1024x64x768_S768x256_S1024x64x256_2_0_01_1_n_n none (feats h h0) W1 (ix3 b m k) + biasAll b1 (ix3 b m k)) (Ideal.ofBits .f32 0x00000000#32) = _
    rw [dotGeneral_ix3 dot_S1024x64x768_S768x256_S1024x64x256_2_0_01_1_n_n none rfl rfl da_l0 da_l1
      (fun j q => dot_S1024x64x768_S768x256_S1024x64x256_2_0_01_1_n_n.lhsIdx_val_of_single rfl j q) (fun j q => dot_S1024x64x768_S768x256_S1024x64x256_2_0_01_1_n_n.rhsIdx_val_of_single rfl j q) da_r1, biasAll_apply]
    simp only [feats_apply (paramsOf W1 b1 W2 b2 Wd bd) rfl]
    rfl
  simp only [hh]
  rfl

theorem rowOf_roundAll (h0 h : FVec Ideal S1024x64x256 .f32) (b : Fin 1024) :
    rowOf (roundAll W1 b1 W2 b2 h0 h) b = round (paramsOf W1 b1 W2 b2 Wd bd) (rowOf h0 b) (rowOf h b) :=
  funext fun m => funext fun j => roundAll_apply W1 b1 W2 b2 Wd bd h0 h b m j

/-- The scores of the whole array are the specification's scores of each batch row. -/
theorem scoresAll_apply (h : FVec Ideal S1024x64x256 .f32) (b : Fin 1024) (m : Fin 64) (a : Fin 16) :
    scoresAll h Wd bd (ix3 b m a) = scores (paramsOf W1 b1 W2 b2 Wd bd) (rowOf h b) m a := by
  show Host.dotGeneral dot_S1024x64x256_S256x16_S1024x64x16_2_0_01_1_n_n none h Wd (ix3 b m a) + _ = _
  rw [dotGeneral_ix3 dot_S1024x64x256_S256x16_S1024x64x16_2_0_01_1_n_n none rfl rfl dc_l0 dc_l1
      (fun j q => dot_S1024x64x256_S256x16_S1024x64x16_2_0_01_1_n_n.lhsIdx_val_of_single rfl j q) (fun j q => dot_S1024x64x256_S256x16_S1024x64x16_2_0_01_1_n_n.rhsIdx_val_of_single rfl j q) dc_r1]
  refine congrArg (_ + ·) ?_
  refine (broadcastInDim_apply _ bcast_S1x1x16_S1024x64x16_0_1_2 _ (ix3 b m a) (ix3 (0 : Fin 1) (0 : Fin 1) a) (fun c => ?_)).trans ?_
  · match c with
    | ⟨0, _⟩ => show (0 : Nat) = if (1 : Nat) = 1 then 0 else b.val; rw [if_pos rfl]
    | ⟨1, _⟩ => show (0 : Nat) = if (1 : Nat) = 1 then 0 else m.val; rw [if_pos rfl]
    | ⟨2, _⟩ => show a.val = if (16 : Nat) = 1 then 0 else a.val; rw [if_neg (by decide)]
  refine broadcastInDim_apply _ bcast_S16_S1x1x16_2 bd (ix3 (0 : Fin 1) (0 : Fin 1) a) (ix1 a) (fun c => ?_)
  match c with
  | ⟨0, _⟩ => show a.val = if (16 : Nat) = 1 then 0 else a.val; rw [if_neg (by decide)]

/-- The reference's result is the specification's result array of the gathered states. -/
theorem refVal_eq (h0 : FVec Ideal S1024x64x256 .f32) : refVal h0 W1 b1 W2 b2 Wd bd = result h0 W1 b1 W2 b2 Wd bd := by
  funext i
  obtain ⟨b, m, a, rfl⟩ : ∃ (b : Fin 1024) (m : Fin 64) (a : Fin 16), i = ix3 b m a := ⟨i 0, i 1, i 2, eq_ix3 i⟩
  unfold refVal
  rw [scoresAll_apply W1 b1 W2 b2 Wd bd]
  simp only [rowOf_roundAll W1 b1 W2 b2 Wd bd]
  rfl

end Params

end Cert.ReferenceIdeal.Body

end
-- ==== Proof.RefRun.lean ====
/-
  The reference's run, with the result named as the composition of rounds.

  The reference's @main is a straight line of 97 host operations, so every weakly fair execution terminates with each
  buffer at the fold of the operations' results over the launch contents. The line is the gather (9 operations), four
  rounds (21 operations each, the same operations on the previous round's state, the gathered states and four weight
  arguments) and the scores (4 operations). Folded over ANY contents, a round's operations leave its state buffer at
  `roundAll` of the contents of its inputs and leave the gathered states and the arguments as they were; chaining the
  six pieces, the result buffer is `refVal` of the gather of the first two arguments and the six weight arguments, and
  no argument buffer changes. (Folding all 97 operations out at once would repeat each round's state three times over,
  81-fold by the end; piece by piece every state is one name.)
-/
import proofs.«170941_j84146999263282_1_alg».proof.Proof.RefOpsP
import proofs.«170941_j84146999263282_1_alg».proof.Proof.RefBody

noncomputable section

namespace Cert.ReferenceIdeal.Body

open Cert.ReferenceIdeal Cert.ReferenceIdeal.Gen Cert.ReferenceIdeal.OpsP Idealize.ShloMosaic Idealize.ShloMosaic.TcCoe Idealize.SL.Sem Idealize.ShloMosaic.StableHlo

variable {F : FTy → Type} [FloatOps F]

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The six pieces of the line -/

/-- The gather of the initial states. -/
def pre : List (HloOp τ sig (Elt F)) :=
  [ nullary main_c (constantI S_ 32 0#32),
    unary main_c main_v0 (broadcastInDim S1024x64 ![] bcast_S_S1024x64 : (⟨S_, .i32⟩ : BufTy).Contents (Elt F) → (⟨S1024x64, .i32⟩ : BufTy).Contents (Elt F)),
    binary main_arg0 main_v0 main_v1 (cmpi .slt : (⟨S1024x64, .i32⟩ : BufTy).Contents (Elt F) → (⟨S1024x64, .i32⟩ : BufTy).Contents (Elt F) → (⟨S1024x64, .i1⟩ : BufTy).Contents (Elt F)),
    nullary main_c_0 (constantI S_ 32 1000#32),
    unary main_c_0 main_v2 (broadcastInDim S1024x64 ![] bcast_S_S1024x64 : (⟨S_, .i32⟩ : BufTy).Contents (Elt F) → (⟨S1024x64, .i32⟩ : BufTy).Contents (Elt F)),
    binary main_arg0 main_v2 main_v3 (addi : (⟨S1024x64, .i32⟩ : BufTy).Contents (Elt F) → (⟨S1024x64, .i32⟩ : BufTy).Contents (Elt F) → (⟨S1024x64, .i32⟩ : BufTy).Contents (Elt F)),
    ternary main_v1 main_v3 main_arg0 main_v4 (select : (⟨S1024x64, .i1⟩ : BufTy).Contents (Elt F) → (⟨S1024x64, .i32⟩ : BufTy).Contents (Elt F) → (⟨S1024x64, .i32⟩ : BufTy).Contents (Elt F) → (⟨S1024x64, .i32⟩ : BufTy).Contents (Elt F)),
    unary main_v4 main_v5 (broadcastInDim S1024x64x1 ![0, 1] bcast_S1024x64_S1024x64x1_0_1 : (⟨S1024x64, .i32⟩ : BufTy).Contents (Elt F) → (⟨S1024x64x1, .i32⟩ : BufTy).Contents (Elt F)),
    binary main_arg1 main_v5 main_v6 ((fun x i => Host.gather gather_S1000x256_S1024x64x1_S1024x64x256_2_0_n_n_0_2_1256 x i) : (⟨S1000x256, .f32⟩ : BufTy).Contents (Elt F) → (⟨S1024x64x1, .i32⟩ : BufTy).Contents (Elt F) → (⟨S1024x64x256, .f32⟩ : BufTy).Contents (Elt F)) ]

/-- The first round, from the gathered states. -/
def round1 : List (HloOp τ sig (Elt F)) :=
  [ nullary main_cst (constant S_ .f32 0x00000000#32),
    binary main_v6 main_cst main_v7 ((fun x v => Host.reduceAdd x v reducesTo_S1024x64x256_S1024x256_d1 h_S_) : (⟨S1024x64x256, .f32⟩ : BufTy).Contents (Elt F) → (⟨S_, .f32⟩ : BufTy).Contents (Elt F) → (⟨S1024x256, .f32⟩ : BufTy).Contents (Elt F)),
    unary main_v7 main_v8 (broadcastInDim S1024x1x256 ![0, 2] bcast_S1024x256_S1024x1x256_0_2 : (⟨S1024x256, .f32⟩ : BufTy).Contents (Elt F) → (⟨S1024x1x256, .f32⟩ : BufTy).Contents (Elt F)),
    unary main_v8 main_v9 (broadcastInDim S1024x64x256 ![0, 1, 2] bcast_S1024x1x256_S1024x64x256_0_1_2 : (⟨S1024x1x256, .f32⟩ : BufTy).Contents (Elt F) → (⟨S1024x64x256, .f32⟩ : BufTy).Contents (Elt F)),
    binary main_v9 main_v6 main_v10 (subf : (⟨S1024x64x256, .f32⟩ : BufTy).Contents (Elt F) → (⟨S1024x64x256, .f32⟩ : BufTy).Contents (Elt F) → (⟨S1024x64x256, .f32⟩ : BufTy).Contents (Elt F)),
    nullary main_cst_1 (constant S_ .f32 0x3C820821#32),
    unary main_cst_1 main_v11 (broadcastInDim S1024x64x256 ![] bcast_S_S1024x64x256 : (⟨S_, .f32⟩ : BufTy).Contents (Elt F) → (⟨S1024x64x256, .f32⟩ : BufTy).Contents (Elt F)),
    binary main_v10 main_v11 main_v12 (mulf : (⟨S1024x64x256, .f32⟩ : BufTy).Contents (Elt F) → (⟨S1024x64x256, .f32⟩ : BufTy).Contents (Elt F) → (⟨S1024x64x256, .f32⟩ : BufTy).Contents (Elt F)),
    nary ![main_v6, main_v12, main_v6] main_v13 (fun u => concatenate S1024x64x768 2 [⟨S1024x64x256, u 0⟩, ⟨S1024x64x256, u 1⟩, ⟨S1024x64x256, u 2⟩] concatenates_S1024x64x256_S1024x64x256_S1024x64x256_S1024x64x768_d2),
    binary main_v13 main_arg2 main_v14 ((fun l r => Host.dotGeneral dot_S1024x64x768_S768x256_S1024x64x256_2_0_01_1_n_n none l r) : (⟨S1024x64x768, .f32⟩ : BufTy).Contents (Elt F) → (⟨S768x256, .f32⟩ : BufTy).Contents (Elt F) → (⟨S1024x64x256, .f32⟩ : BufTy).Contents (Elt F)),
    unary main_arg3 main_v15 (broadcastInDim S1x1x256 ![2] bcast_S256_S1x1x256_2 : (⟨S256, .f32⟩ : BufTy).Contents (Elt F) → (⟨S1x1x256, .f32⟩ : BufTy).Contents (Elt F)),
    unary main_v15 main_v16 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v14 main_v16 main_v17 (addf : (⟨S1024x64x256, .f32⟩ : BufTy).Contents (Elt F) → (⟨S1024x64x256, .f32⟩ : BufTy).Contents (Elt F) → (⟨S1024x64x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x64x256, .f32⟩) main_call0_v0) (broadcastInDim S1024x64x256 ![] bcast_S_S1024x64x256),
    TRef.binary (TRef.of (T := ⟨S1024x64x256, .f32⟩) main_v17) (TRef.of (T := ⟨S1024x64x256, .f32⟩) main_call0_v0) (TRef.of (T := ⟨S1024x64x256, .f32⟩) main_v18) maximumf,
    binary main_v18 main_arg4 main_v19 ((fun l r => Host.dotGeneral dot_S1024x64x256_S256x256_S1024x64x256_2_0_01_1_n_n none l r) : (⟨S1024x64x256, .f32⟩ : BufTy).Contents (Elt F) → (⟨S256x256, .f32⟩ : BufTy).Contents (Elt F) → (⟨S1024x64x256, .f32⟩ : BufTy).Contents (Elt F)),
    unary main_arg5 main_v20 (broadcastInDim S1x1x256 ![2] bcast_S256_S1x1x256_2 : (⟨S256, .f32⟩ : BufTy).Contents (Elt F) → (⟨S1x1x256, .f32⟩ : BufTy).Contents (Elt F)),
    unary main_v20 main_v21 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v19 main_v21 main_v22 (addf : (⟨S1024x64x256, .f32⟩ : BufTy).Contents (Elt F) → (⟨S1024x64x256, .f32⟩ : BufTy).Contents (Elt F) → (⟨S1024x64x256, .f32⟩ : BufTy).Contents (Elt F)),
    binary main_v6 main_v22 main_v23 (addf : (⟨S1024x64x256, .f32⟩ : BufTy).Contents (Elt F) → (⟨S1024x64x256, .f32⟩ : BufTy).Contents (Elt F) → (⟨S1024x64x256, .f32⟩ : BufTy).Contents (Elt F)) ]

/-- The second round. -/
def round2 : List (HloOp τ sig (Elt F)) :=
  [ nullary main_cst_2 (constant S_ .f32 0x00000000#32),
    binary main_v23 main_cst_2 main_v24 ((fun x v => Host.reduceAdd x v reducesTo_S1024x64x256_S1024x256_d1 h_S_) : (⟨S1024x64x256, .f32⟩ : BufTy).Contents (Elt F) → (⟨S_, .f32⟩ : BufTy).Contents (Elt F) → (⟨S1024x256, .f32⟩ : BufTy).Contents (Elt F)),
    unary main_v24 main_v25 (broadcastInDim S1024x1x256 ![0, 2] bcast_S1024x256_S1024x1x256_0_2 : (⟨S1024x256, .f32⟩ : BufTy).Contents (Elt F) → (⟨S1024x1x256, .f32⟩ : BufTy).Contents (Elt F)),
    unary main_v25 main_v26 (broadcastInDim S1024x64x256 ![0, 1, 2] bcast_S1024x1x256_S1024x64x256_0_1_2 : (⟨S1024x1x256, .f32⟩ : BufTy).Contents (Elt F) → (⟨S1024x64x256, .f32⟩ : BufTy).Contents (Elt F)),
    binary main_v26 main_v23 main_v27 (subf : (⟨S1024x64x256, .f32⟩ : BufTy).Contents (Elt F) → (⟨S1024x64x256, .f32⟩ : BufTy).Contents (Elt F) → (⟨S1024x64x256, .f32⟩ : BufTy).Contents (Elt F)),
    nullary main_cst_3 (constant S_ .f32 0x3C820821#32),
    unary main_cst_3 main_v28 (broadcastInDim S1024x64x256 ![] bcast_S_S1024x64x256 : (⟨S_, .f32⟩ : BufTy).Contents (Elt F) → (⟨S1024x64x256, .f32⟩ : BufTy).Contents (Elt F)),
    binary main_v27 main_v28 main_v29 (mulf : (⟨S1024x64x256, .f32⟩ : BufTy).Contents (Elt F) → (⟨S1024x64x256, .f32⟩ : BufTy).Contents (Elt F) → (⟨S1024x64x256, .f32⟩ : BufTy).Contents (Elt F)),
    nary ![main_v23, main_v29, main_v6] main_v30 (fun u => concatenate S1024x64x768 2 [⟨S1024x64x256, u 0⟩, ⟨S1024x64x256, u 1⟩, ⟨S1024x64x256, u 2⟩] concatenates_S1024x64x256_S1024x64x256_S1024x64x256_S1024x64x768_d2),
    binary main_v30 main_arg2 main_v31 ((fun l r => Host.dotGeneral dot_S1024x64x768_S768x256_S1024x64x256_2_0_01_1_n_n none l r) : (⟨S1024x64x768, .f32⟩ : BufTy).Contents (Elt F) → (⟨S768x256, .f32⟩ : BufTy).Contents (Elt F) → (⟨S1024x64x256, .f32⟩ : BufTy).Contents (Elt F)),
    unary main_arg3 main_v32 (broadcastInDim S1x1x256 ![2] bcast_S256_S1x1x256_2 : (⟨S256, .f32⟩ : BufTy).Contents (Elt F) → (⟨S1x1x256, .f32⟩ : BufTy).Contents (Elt F)),
    unary main_v32 main_v33 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v31 main_v33 main_v34 (addf : (⟨S1024x64x256, .f32⟩ : BufTy).Contents (Elt F) → (⟨S1024x64x256, .f32⟩ : BufTy).Contents (Elt F) → (⟨S1024x64x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x64x256, .f32⟩) main_call1_v0) (broadcastInDim S1024x64x256 ![] bcast_S_S1024x64x256),
    TRef.binary (TRef.of (T := ⟨S1024x64x256, .f32⟩) main_v34) (TRef.of (T := ⟨S1024x64x256, .f32⟩) main_call1_v0) (TRef.of (T := ⟨S1024x64x256, .f32⟩) main_v35) maximumf,
    binary main_v35 main_arg4 main_v36 ((fun l r => Host.dotGeneral dot_S1024x64x256_S256x256_S1024x64x256_2_0_01_1_n_n none l r) : (⟨S1024x64x256, .f32⟩ : BufTy).Contents (Elt F) → (⟨S256x256, .f32⟩ : BufTy).Contents (Elt F) → (⟨S1024x64x256, .f32⟩ : BufTy).Contents (Elt F)),
    unary main_arg5 main_v37 (broadcastInDim S1x1x256 ![2] bcast_S256_S1x1x256_2 : (⟨S256, .f32⟩ : BufTy).Contents (Elt F) → (⟨S1x1x256, .f32⟩ : BufTy).Contents (Elt F)),
    unary main_v37 main_v38 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v36 main_v38 main_v39 (addf : (⟨S1024x64x256, .f32⟩ : BufTy).Contents (Elt F) → (⟨S1024x64x256, .f32⟩ : BufTy).Contents (Elt F) → (⟨S1024x64x256, .f32⟩ : BufTy).Contents (Elt F)),
    binary main_v23 main_v39 main_v40 (addf : (⟨S1024x64x256, .f32⟩ : BufTy).Contents (Elt F) → (⟨S1024x64x256, .f32⟩ : BufTy).Contents (Elt F) → (⟨S1024x64x256, .f32⟩ : BufTy).Contents (Elt F)) ]

/-- The third round. -/
def round3 : List (HloOp τ sig (Elt F)) :=
  [ nullary main_cst_4 (constant S_ .f32 0x00000000#32),
    binary main_v40 main_cst_4 main_v41 ((fun x v => Host.reduceAdd x v reducesTo_S1024x64x256_S1024x256_d1 h_S_) : (⟨S1024x64x256, .f32⟩ : BufTy).Contents (Elt F) → (⟨S_, .f32⟩ : BufTy).Contents (Elt F) → (⟨S1024x256, .f32⟩ : BufTy).Contents (Elt F)),
    unary main_v41 main_v42 (broadcastInDim S1024x1x256 ![0, 2] bcast_S1024x256_S1024x1x256_0_2 : (⟨S1024x256, .f32⟩ : BufTy).Contents (Elt F) → (⟨S1024x1x256, .f32⟩ : BufTy).Contents (Elt F)),
    unary main_v42 main_v43 (broadcastInDim S1024x64x256 ![0, 1, 2] bcast_S1024x1x256_S1024x64x256_0_1_2 : (⟨S1024x1x256, .f32⟩ : BufTy).Contents (Elt F) → (⟨S1024x64x256, .f32⟩ : BufTy).Contents (Elt F)),
    binary main_v43 main_v40 main_v44 (subf : (⟨S1024x64x256, .f32⟩ : BufTy).Contents (Elt F) → (⟨S1024x64x256, .f32⟩ : BufTy).Contents (Elt F) → (⟨S1024x64x256, .f32⟩ : BufTy).Contents (Elt F)),
    nullary main_cst_5 (constant S_ .f32 0x3C820821#32),
    unary main_cst_5 main_v45 (broadcastInDim S1024x64x256 ![] bcast_S_S1024x64x256 : (⟨S_, .f32⟩ : BufTy).Contents (Elt F) → (⟨S1024x64x256, .f32⟩ : BufTy).Contents (Elt F)),
    binary main_v44 main_v45 main_v46 (mulf : (⟨S1024x64x256, .f32⟩ : BufTy).Contents (Elt F) → (⟨S1024x64x256, .f32⟩ : BufTy).Contents (Elt F) → (⟨S1024x64x256, .f32⟩ : BufTy).Contents (Elt F)),
    nary ![main_v40, main_v46, main_v6] main_v47 (fun u => concatenate S1024x64x768 2 [⟨S1024x64x256, u 0⟩, ⟨S1024x64x256, u 1⟩, ⟨S1024x64x256, u 2⟩] concatenates_S1024x64x256_S1024x64x256_S1024x64x256_S1024x64x768_d2),
    binary main_v47 main_arg2 main_v48 ((fun l r => Host.dotGeneral dot_S1024x64x768_S768x256_S1024x64x256_2_0_01_1_n_n none l r) : (⟨S1024x64x768, .f32⟩ : BufTy).Contents (Elt F) → (⟨S768x256, .f32⟩ : BufTy).Contents (Elt F) → (⟨S1024x64x256, .f32⟩ : BufTy).Contents (Elt F)),
    unary main_arg3 main_v49 (broadcastInDim S1x1x256 ![2] bcast_S256_S1x1x256_2 : (⟨S256, .f32⟩ : BufTy).Contents (Elt F) → (⟨S1x1x256, .f32⟩ : BufTy).Contents (Elt F)),
    unary main_v49 main_v50 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v48 main_v50 main_v51 (addf : (⟨S1024x64x256, .f32⟩ : BufTy).Contents (Elt F) → (⟨S1024x64x256, .f32⟩ : BufTy).Contents (Elt F) → (⟨S1024x64x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x64x256, .f32⟩) main_call2_v0) (broadcastInDim S1024x64x256 ![] bcast_S_S1024x64x256),
    TRef.binary (TRef.of (T := ⟨S1024x64x256, .f32⟩) main_v51) (TRef.of (T := ⟨S1024x64x256, .f32⟩) main_call2_v0) (TRef.of (T := ⟨S1024x64x256, .f32⟩) main_v52) maximumf,
    binary main_v52 main_arg4 main_v53 ((fun l r => Host.dotGeneral dot_S1024x64x256_S256x256_S1024x64x256_2_0_01_1_n_n none l r) : (⟨S1024x64x256, .f32⟩ : BufTy).Contents (Elt F) → (⟨S256x256, .f32⟩ : BufTy).Contents (Elt F) → (⟨S1024x64x256, .f32⟩ : BufTy).Contents (Elt F)),
    unary main_arg5 main_v54 (broadcastInDim S1x1x256 ![2] bcast_S256_S1x1x256_2 : (⟨S256, .f32⟩ : BufTy).Contents (Elt F) → (⟨S1x1x256, .f32⟩ : BufTy).Contents (Elt F)),
    unary main_v54 main_v55 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v53 main_v55 main_v56 (addf : (⟨S1024x64x256, .f32⟩ : BufTy).Contents (Elt F) → (⟨S1024x64x256, .f32⟩ : BufTy).Contents (Elt F) → (⟨S1024x64x256, .f32⟩ : BufTy).Contents (Elt F)),
    binary main_v40 main_v56 main_v57 (addf : (⟨S1024x64x256, .f32⟩ : BufTy).Contents (Elt F) → (⟨S1024x64x256, .f32⟩ : BufTy).Contents (Elt F) → (⟨S1024x64x256, .f32⟩ : BufTy).Contents (Elt F)) ]

/-- The fourth round. -/
def round4 : List (HloOp τ sig (Elt F)) :=
  [ nullary main_cst_6 (constant S_ .f32 0x00000000#32),
    binary main_v57 main_cst_6 main_v58 ((fun x v => Host.reduceAdd x v reducesTo_S1024x64x256_S1024x256_d1 h_S_) : (⟨S1024x64x256, .f32⟩ : BufTy).Contents (Elt F) → (⟨S_, .f32⟩ : BufTy).Contents (Elt F) → (⟨S1024x256, .f32⟩ : BufTy).Contents (Elt F)),
    unary main_v58 main_v59 (broadcastInDim S1024x1x256 ![0, 2] bcast_S1024x256_S1024x1x256_0_2 : (⟨S1024x256, .f32⟩ : BufTy).Contents (Elt F) → (⟨S1024x1x256, .f32⟩ : BufTy).Contents (Elt F)),
    unary main_v59 main_v60 (broadcastInDim S1024x64x256 ![0, 1, 2] bcast_S1024x1x256_S1024x64x256_0_1_2 : (⟨S1024x1x256, .f32⟩ : BufTy).Contents (Elt F) → (⟨S1024x64x256, .f32⟩ : BufTy).Contents (Elt F)),
    binary main_v60 main_v57 main_v61 (subf : (⟨S1024x64x256, .f32⟩ : BufTy).Contents (Elt F) → (⟨S1024x64x256, .f32⟩ : BufTy).Contents (Elt F) → (⟨S1024x64x256, .f32⟩ : BufTy).Contents (Elt F)),
    nullary main_cst_7 (constant S_ .f32 0x3C820821#32),
    unary main_cst_7 main_v62 (broadcastInDim S1024x64x256 ![] bcast_S_S1024x64x256 : (⟨S_, .f32⟩ : BufTy).Contents (Elt F) → (⟨S1024x64x256, .f32⟩ : BufTy).Contents (Elt F)),
    binary main_v61 main_v62 main_v63 (mulf : (⟨S1024x64x256, .f32⟩ : BufTy).Contents (Elt F) → (⟨S1024x64x256, .f32⟩ : BufTy).Contents (Elt F) → (⟨S1024x64x256, .f32⟩ : BufTy).Contents (Elt F)),
    nary ![main_v57, main_v63, main_v6] main_v64 (fun u => concatenate S1024x64x768 2 [⟨S1024x64x256, u 0⟩, ⟨S1024x64x256, u 1⟩, ⟨S1024x64x256, u 2⟩] concatenates_S1024x64x256_S1024x64x256_S1024x64x256_S1024x64x768_d2),
    binary main_v64 main_arg2 main_v65 ((fun l r => Host.dotGeneral dot_S1024x64x768_S768x256_S1024x64x256_2_0_01_1_n_n none l r) : (⟨S1024x64x768, .f32⟩ : BufTy).Contents (Elt F) → (⟨S768x256, .f32⟩ : BufTy).Contents (Elt F) → (⟨S1024x64x256, .f32⟩ : BufTy).Contents (Elt F)),
    unary main_arg3 main_v66 (broadcastInDim S1x1x256 ![2] bcast_S256_S1x1x256_2 : (⟨S256, .f32⟩ : BufTy).Contents (Elt F) → (⟨S1x1x256, .f32⟩ : BufTy).Contents (Elt F)),
    unary main_v66 main_v67 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v65 main_v67 main_v68 (addf : (⟨S1024x64x256, .f32⟩ : BufTy).Contents (Elt F) → (⟨S1024x64x256, .f32⟩ : BufTy).Contents (Elt F) → (⟨S1024x64x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x64x256, .f32⟩) main_call3_v0) (broadcastInDim S1024x64x256 ![] bcast_S_S1024x64x256),
    TRef.binary (TRef.of (T := ⟨S1024x64x256, .f32⟩) main_v68) (TRef.of (T := ⟨S1024x64x256, .f32⟩) main_call3_v0) (TRef.of (T := ⟨S1024x64x256, .f32⟩) main_v69) maximumf,
    binary main_v69 main_arg4 main_v70 ((fun l r => Host.dotGeneral dot_S1024x64x256_S256x256_S1024x64x256_2_0_01_1_n_n none l r) : (⟨S1024x64x256, .f32⟩ : BufTy).Contents (Elt F) → (⟨S256x256, .f32⟩ : BufTy).Contents (Elt F) → (⟨S1024x64x256, .f32⟩ : BufTy).Contents (Elt F)),
    unary main_arg5 main_v71 (broadcastInDim S1x1x256 ![2] bcast_S256_S1x1x256_2 : (⟨S256, .f32⟩ : BufTy).Contents (Elt F) → (⟨S1x1x256, .f32⟩ : BufTy).Contents (Elt F)),
    unary main_v71 main_v72 (broadcastInDim S1024x64x256 ![0, 1, 2] bcast_S1x1x256_S1024x64x256_0_1_2 : (⟨S1x1x256, .f32⟩ : BufTy).Contents (Elt F) → (⟨S1024x64x256, .f32⟩ : BufTy).Contents (Elt F)),
    binary main_v70 main_v72 main_v73 (addf : (⟨S1024x64x256, .f32⟩ : BufTy).Contents (Elt F) → (⟨S1024x64x256, .f32⟩ : BufTy).Contents (Elt F) → (⟨S1024x64x256, .f32⟩ : BufTy).Contents (Elt F)),
    binary main_v57 main_v73 main_v74 (addf : (⟨S1024x64x256, .f32⟩ : BufTy).Contents (Elt F) → (⟨S1024x64x256, .f32⟩ : BufTy).Contents (Elt F) → (⟨S1024x64x256, .f32⟩ : BufTy).Contents (Elt F)) ]

/-- The scores. -/
def tail : List (HloOp τ sig (Elt F)) :=
  [ binary main_v74 main_arg6 main_v75 ((fun l r => Host.dotGeneral dot_S1024x64x256_S256x16_S1024x64x16_2_0_01_1_n_n none l r) : (⟨S1024x64x256, .f32⟩ : BufTy).Contents (Elt F) → (⟨S256x16, .f32⟩ : BufTy).Contents (Elt F) → (⟨S1024x64x16, .f32⟩ : BufTy).Contents (Elt F)),
    unary main_arg7 main_v76 (broadcastInDim S1x1x16 ![2] bcast_S16_S1x1x16_2 : (⟨S16, .f32⟩ : BufTy).Contents (Elt F) → (⟨S1x1x16, .f32⟩ : BufTy).Contents (Elt F)),
    unary main_v76 main_v77 (broadcastInDim S1024x64x16 ![0, 1, 2] bcast_S1x1x16_S1024x64x16_0_1_2 : (⟨S1x1x16, .f32⟩ : BufTy).Contents (Elt F) → (⟨S1024x64x16, .f32⟩ : BufTy).Contents (Elt F)),
    binary main_v75 main_v77 main_v78 (addf : (⟨S1024x64x16, .f32⟩ : BufTy).Contents (Elt F) → (⟨S1024x64x16, .f32⟩ : BufTy).Contents (Elt F) → (⟨S1024x64x16, .f32⟩ : BufTy).Contents (Elt F)) ]

set_option maxRecDepth 8192 in
/-- The line is its six pieces end to end. -/
theorem ops_eq : (ops : List (HloOp τ sig (Elt F))) = pre ++ (round1 ++ (round2 ++ (round3 ++ (round4 ++ tail)))) := rfl

/-! ## Each piece folded over any contents -/

theorem pre_out (W : Valuation τ sig (Elt F)) :
    after pre W (Proc.devRef .tc main_v6) = gathered (W (Proc.devRef .tc main_arg0)) (W (Proc.devRef .tc main_arg1)) := by
  unfold pre; after_results_simp <;> rfl
theorem pre_keep_arg0 (W : Valuation τ sig (Elt F)) : after pre W (Proc.devRef .tc main_arg0) = W (Proc.devRef .tc main_arg0) := by unfold pre; after_results_simp <;> rfl
theorem pre_keep_arg1 (W : Valuation τ sig (Elt F)) : after pre W (Proc.devRef .tc main_arg1) = W (Proc.devRef .tc main_arg1) := by unfold pre; after_results_simp <;> rfl
theorem pre_keep_arg2 (W : Valuation τ sig (Elt F)) : after pre W (Proc.devRef .tc main_arg2) = W (Proc.devRef .tc main_arg2) := by unfold pre; after_results_simp <;> rfl
theorem pre_keep_arg3 (W : Valuation τ sig (Elt F)) : after pre W (Proc.devRef .tc main_arg3) = W (Proc.devRef .tc main_arg3) := by unfold pre; after_results_simp <;> rfl
theorem pre_keep_arg4 (W : Valuation τ sig (Elt F)) : after pre W (Proc.devRef .tc main_arg4) = W (Proc.devRef .tc main_arg4) := by unfold pre; after_results_simp <;> rfl
theorem pre_keep_arg5 (W : Valuation τ sig (Elt F)) : after pre W (Proc.devRef .tc main_arg5) = W (Proc.devRef .tc main_arg5) := by unfold pre; after_results_simp <;> rfl
theorem pre_keep_arg6 (W : Valuation τ sig (Elt F)) : after pre W (Proc.devRef .tc main_arg6) = W (Proc.devRef .tc main_arg6) := by unfold pre; after_results_simp <;> rfl
theorem pre_keep_arg7 (W : Valuation τ sig (Elt F)) : after pre W (Proc.devRef .tc main_arg7) = W (Proc.devRef .tc main_arg7) := by unfold pre; after_results_simp <;> rfl

theorem round1_out (W : Valuation τ sig (Elt F)) :
    after round1 W (Proc.devRef .tc main_v23) = roundAll (W (Proc.devRef .tc main_arg2)) (W (Proc.devRef .tc main_arg3)) (W (Proc.devRef .tc main_arg4)) (W (Proc.devRef .tc main_arg5)) (W (Proc.devRef .tc main_v6)) (W (Proc.devRef .tc main_v6)) := by
  unfold round1; after_results_simp <;> rfl
theorem round1_keep_v6 (W : Valuation τ sig (Elt F)) : after round1 W (Proc.devRef .tc main_v6) = W (Proc.devRef .tc main_v6) := by unfold round1; after_results_simp <;> rfl
theorem round1_keep_arg0 (W : Valuation τ sig (Elt F)) : after round1 W (Proc.devRef .tc main_arg0) = W (Proc.devRef .tc main_arg0) := by unfold round1; after_results_simp <;> rfl
theorem round1_keep_arg1 (W : Valuation τ sig (Elt F)) : after round1 W (Proc.devRef .tc main_arg1) = W (Proc.devRef .tc main_arg1) := by unfold round1; after_results_simp <;> rfl
theorem round1_keep_arg2 (W : Valuation τ sig (Elt F)) : after round1 W (Proc.devRef .tc main_arg2) = W (Proc.devRef .tc main_arg2) := by unfold round1; after_results_simp <;> rfl
theorem round1_keep_arg3 (W : Valuation τ sig (Elt F)) : after round1 W (Proc.devRef .tc main_arg3) = W (Proc.devRef .tc main_arg3) := by unfold round1; after_results_simp <;> rfl
theorem round1_keep_arg4 (W : Valuation τ sig (Elt F)) : after round1 W (Proc.devRef .tc main_arg4) = W (Proc.devRef .tc main_arg4) := by unfold round1; after_results_simp <;> rfl
theorem round1_keep_arg5 (W : Valuation τ sig (Elt F)) : after round1 W (Proc.devRef .tc main_arg5) = W (Proc.devRef .tc main_arg5) := by unfold round1; after_results_simp <;> rfl
theorem round1_keep_arg6 (W : Valuation τ sig (Elt F)) : after round1 W (Proc.devRef .tc main_arg6) = W (Proc.devRef .tc main_arg6) := by unfold round1; after_results_simp <;> rfl
theorem round1_keep_arg7 (W : Valuation τ sig (Elt F)) : after round1 W (Proc.devRef .tc main_arg7) = W (Proc.devRef .tc main_arg7) := by unfold round1; after_results_simp <;> rfl

theorem round2_out (W : Valuation τ sig (Elt F)) :
    after round2 W (Proc.devRef .tc main_v40) = roundAll (W (Proc.devRef .tc main_arg2)) (W (Proc.devRef .tc main_arg3)) (W (Proc.devRef .tc main_arg4)) (W (Proc.devRef .tc main_arg5)) (W (Proc.devRef .tc main_v6)) (W (Proc.devRef .tc main_v23)) := by
  unfold round2; after_results_simp <;> rfl
theorem round2_keep_v6 (W : Valuation τ sig (Elt F)) : after round2 W (Proc.devRef .tc main_v6) = W (Proc.devRef .tc main_v6) := by unfold round2; after_results_simp <;> rfl
theorem round2_keep_arg0 (W : Valuation τ sig (Elt F)) : after round2 W (Proc.devRef .tc main_arg0) = W (Proc.devRef .tc main_arg0) := by unfold round2; after_results_simp <;> rfl
theorem round2_keep_arg1 (W : Valuation τ sig (Elt F)) : after round2 W (Proc.devRef .tc main_arg1) = W (Proc.devRef .tc main_arg1) := by unfold round2; after_results_simp <;> rfl
theorem round2_keep_arg2 (W : Valuation τ sig (Elt F)) : after round2 W (Proc.devRef .tc main_arg2) = W (Proc.devRef .tc main_arg2) := by unfold round2; after_results_simp <;> rfl
theorem round2_keep_arg3 (W : Valuation τ sig (Elt F)) : after round2 W (Proc.devRef .tc main_arg3) = W (Proc.devRef .tc main_arg3) := by unfold round2; after_results_simp <;> rfl
theorem round2_keep_arg4 (W : Valuation τ sig (Elt F)) : after round2 W (Proc.devRef .tc main_arg4) = W (Proc.devRef .tc main_arg4) := by unfold round2; after_results_simp <;> rfl
theorem round2_keep_arg5 (W : Valuation τ sig (Elt F)) : after round2 W (Proc.devRef .tc main_arg5) = W (Proc.devRef .tc main_arg5) := by unfold round2; after_results_simp <;> rfl
theorem round2_keep_arg6 (W : Valuation τ sig (Elt F)) : after round2 W (Proc.devRef .tc main_arg6) = W (Proc.devRef .tc main_arg6) := by unfold round2; after_results_simp <;> rfl
theorem round2_keep_arg7 (W : Valuation τ sig (Elt F)) : after round2 W (Proc.devRef .tc main_arg7) = W (Proc.devRef .tc main_arg7) := by unfold round2; after_results_simp <;> rfl

theorem round3_out (W : Valuation τ sig (Elt F)) :
    after round3 W (Proc.devRef .tc main_v57) = roundAll (W (Proc.devRef .tc main_arg2)) (W (Proc.devRef .tc main_arg3)) (W (Proc.devRef .tc main_arg4)) (W (Proc.devRef .tc main_arg5)) (W (Proc.devRef .tc main_v6)) (W (Proc.devRef .tc main_v40)) := by
  unfold round3; after_results_simp <;> rfl
theorem round3_keep_v6 (W : Valuation τ sig (Elt F)) : after round3 W (Proc.devRef .tc main_v6) = W (Proc.devRef .tc main_v6) := by unfold round3; after_results_simp <;> rfl
theorem round3_keep_arg0 (W : Valuation τ sig (Elt F)) : after round3 W (Proc.devRef .tc main_arg0) = W (Proc.devRef .tc main_arg0) := by unfold round3; after_results_simp <;> rfl
theorem round3_keep_arg1 (W : Valuation τ sig (Elt F)) : after round3 W (Proc.devRef .tc main_arg1) = W (Proc.devRef .tc main_arg1) := by unfold round3; after_results_simp <;> rfl
theorem round3_keep_arg2 (W : Valuation τ sig (Elt F)) : after round3 W (Proc.devRef .tc main_arg2) = W (Proc.devRef .tc main_arg2) := by unfold round3; after_results_simp <;> rfl
theorem round3_keep_arg3 (W : Valuation τ sig (Elt F)) : after round3 W (Proc.devRef .tc main_arg3) = W (Proc.devRef .tc main_arg3) := by unfold round3; after_results_simp <;> rfl
theorem round3_keep_arg4 (W : Valuation τ sig (Elt F)) : after round3 W (Proc.devRef .tc main_arg4) = W (Proc.devRef .tc main_arg4) := by unfold round3; after_results_simp <;> rfl
theorem round3_keep_arg5 (W : Valuation τ sig (Elt F)) : after round3 W (Proc.devRef .tc main_arg5) = W (Proc.devRef .tc main_arg5) := by unfold round3; after_results_simp <;> rfl
theorem round3_keep_arg6 (W : Valuation τ sig (Elt F)) : after round3 W (Proc.devRef .tc main_arg6) = W (Proc.devRef .tc main_arg6) := by unfold round3; after_results_simp <;> rfl
theorem round3_keep_arg7 (W : Valuation τ sig (Elt F)) : after round3 W (Proc.devRef .tc main_arg7) = W (Proc.devRef .tc main_arg7) := by unfold round3; after_results_simp <;> rfl

theorem round4_out (W : Valuation τ sig (Elt F)) :
    after round4 W (Proc.devRef .tc main_v74) = roundAll (W (Proc.devRef .tc main_arg2)) (W (Proc.devRef .tc main_arg3)) (W (Proc.devRef .tc main_arg4)) (W (Proc.devRef .tc main_arg5)) (W (Proc.devRef .tc main_v6)) (W (Proc.devRef .tc main_v57)) := by
  unfold round4; after_results_simp <;> rfl
theorem round4_keep_arg0 (W : Valuation τ sig (Elt F)) : after round4 W (Proc.devRef .tc main_arg0) = W (Proc.devRef .tc main_arg0) := by unfold round4; after_results_simp <;> rfl
theorem round4_keep_arg1 (W : Valuation τ sig (Elt F)) : after round4 W (Proc.devRef .tc main_arg1) = W (Proc.devRef .tc main_arg1) := by unfold round4; after_results_simp <;> rfl
theorem round4_keep_arg2 (W : Valuation τ sig (Elt F)) : after round4 W (Proc.devRef .tc main_arg2) = W (Proc.devRef .tc main_arg2) := by unfold round4; after_results_simp <;> rfl
theorem round4_keep_arg3 (W : Valuation τ sig (Elt F)) : after round4 W (Proc.devRef .tc main_arg3) = W (Proc.devRef .tc main_arg3) := by unfold round4; after_results_simp <;> rfl
theorem round4_keep_arg4 (W : Valuation τ sig (Elt F)) : after round4 W (Proc.devRef .tc main_arg4) = W (Proc.devRef .tc main_arg4) := by unfold round4; after_results_simp <;> rfl
theorem round4_keep_arg5 (W : Valuation τ sig (Elt F)) : after round4 W (Proc.devRef .tc main_arg5) = W (Proc.devRef .tc main_arg5) := by unfold round4; after_results_simp <;> rfl
theorem round4_keep_arg6 (W : Valuation τ sig (Elt F)) : after round4 W (Proc.devRef .tc main_arg6) = W (Proc.devRef .tc main_arg6) := by unfold round4; after_results_simp <;> rfl
theorem round4_keep_arg7 (W : Valuation τ sig (Elt F)) : after round4 W (Proc.devRef .tc main_arg7) = W (Proc.devRef .tc main_arg7) := by unfold round4; after_results_simp <;> rfl

theorem tail_out (W : Valuation τ sig (Elt F)) :
    after tail W (Proc.devRef .tc main_v78) = scoresAll (W (Proc.devRef .tc main_v74)) (W (Proc.devRef .tc main_arg6)) (W (Proc.devRef .tc main_arg7)) := by
  unfold tail; after_results_simp <;> rfl
theorem tail_keep_arg0 (W : Valuation τ sig (Elt F)) : after tail W (Proc.devRef .tc main_arg0) = W (Proc.devRef .tc main_arg0) := by unfold tail; after_results_simp <;> rfl
theorem tail_keep_arg1 (W : Valuation τ sig (Elt F)) : after tail W (Proc.devRef .tc main_arg1) = W (Proc.devRef .tc main_arg1) := by unfold tail; after_results_simp <;> rfl
theorem tail_keep_arg2 (W : Valuation τ sig (Elt F)) : after tail W (Proc.devRef .tc main_arg2) = W (Proc.devRef .tc main_arg2) := by unfold tail; after_results_simp <;> rfl
theorem tail_keep_arg3 (W : Valuation τ sig (Elt F)) : after tail W (Proc.devRef .tc main_arg3) = W (Proc.devRef .tc main_arg3) := by unfold tail; after_results_simp <;> rfl
theorem tail_keep_arg4 (W : Valuation τ sig (Elt F)) : after tail W (Proc.devRef .tc main_arg4) = W (Proc.devRef .tc main_arg4) := by unfold tail; after_results_simp <;> rfl
theorem tail_keep_arg5 (W : Valuation τ sig (Elt F)) : after tail W (Proc.devRef .tc main_arg5) = W (Proc.devRef .tc main_arg5) := by unfold tail; after_results_simp <;> rfl
theorem tail_keep_arg6 (W : Valuation τ sig (Elt F)) : after tail W (Proc.devRef .tc main_arg6) = W (Proc.devRef .tc main_arg6) := by unfold tail; after_results_simp <;> rfl
theorem tail_keep_arg7 (W : Valuation τ sig (Elt F)) : after tail W (Proc.devRef .tc main_arg7) = W (Proc.devRef .tc main_arg7) := by unfold tail; after_results_simp <;> rfl

/-! ## The whole line -/

/-- The result buffer after the whole line, from any contents. -/
theorem result_eq (V : Valuation τ sig (Elt F)) :
    after ops V (Proc.devRef .tc main_v78)
      = refVal (gathered (V (Proc.devRef .tc main_arg0)) (V (Proc.devRef .tc main_arg1))) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [ops_eq, after_append, after_append, after_append, after_append, after_append,
    tail_out, round4_out, round4_keep_arg6, round4_keep_arg7, round3_out, round3_keep_v6, round3_keep_arg2, round3_keep_arg3, round3_keep_arg4, round3_keep_arg5, round3_keep_arg6, round3_keep_arg7, round2_out, round2_keep_v6, round2_keep_arg2, round2_keep_arg3, round2_keep_arg4, round2_keep_arg5, round2_keep_arg6, round2_keep_arg7, round1_out, round1_keep_v6, round1_keep_arg2, round1_keep_arg3, round1_keep_arg4, round1_keep_arg5, round1_keep_arg6, round1_keep_arg7, pre_out, pre_keep_arg2, pre_keep_arg3, pre_keep_arg4, pre_keep_arg5, pre_keep_arg6, pre_keep_arg7]
  rfl

theorem kept_arg0 (V : Valuation τ sig (Elt F)) : after ops V (Proc.devRef .tc main_arg0) = V (Proc.devRef .tc main_arg0) := by
  rw [ops_eq, after_append, after_append, after_append, after_append, after_append,
    tail_keep_arg0, round4_keep_arg0, round3_keep_arg0, round2_keep_arg0, round1_keep_arg0, pre_keep_arg0]
theorem kept_arg1 (V : Valuation τ sig (Elt F)) : after ops V (Proc.devRef .tc main_arg1) = V (Proc.devRef .tc main_arg1) := by
  rw [ops_eq, after_append, after_append, after_append, after_append, after_append,
    tail_keep_arg1, round4_keep_arg1, round3_keep_arg1, round2_keep_arg1, round1_keep_arg1, pre_keep_arg1]
theorem kept_arg2 (V : Valuation τ sig (Elt F)) : after ops V (Proc.devRef .tc main_arg2) = V (Proc.devRef .tc main_arg2) := by
  rw [ops_eq, after_append, after_append, after_append, after_append, after_append,
    tail_keep_arg2, round4_keep_arg2, round3_keep_arg2, round2_keep_arg2, round1_keep_arg2, pre_keep_arg2]
theorem kept_arg3 (V : Valuation τ sig (Elt F)) : after ops V (Proc.devRef .tc main_arg3) = V (Proc.devRef .tc main_arg3) := by
  rw [ops_eq, after_append, after_append, after_append, after_append, after_append,
    tail_keep_arg3, round4_keep_arg3, round3_keep_arg3, round2_keep_arg3, round1_keep_arg3, pre_keep_arg3]
theorem kept_arg4 (V : Valuation τ sig (Elt F)) : after ops V (Proc.devRef .tc main_arg4) = V (Proc.devRef .tc main_arg4) := by
  rw [ops_eq, after_append, after_append, after_append, after_append, after_append,
    tail_keep_arg4, round4_keep_arg4, round3_keep_arg4, round2_keep_arg4, round1_keep_arg4, pre_keep_arg4]
theorem kept_arg5 (V : Valuation τ sig (Elt F)) : after ops V (Proc.devRef .tc main_arg5) = V (Proc.devRef .tc main_arg5) := by
  rw [ops_eq, after_append, after_append, after_append, after_append, after_append,
    tail_keep_arg5, round4_keep_arg5, round3_keep_arg5, round2_keep_arg5, round1_keep_arg5, pre_keep_arg5]
theorem kept_arg6 (V : Valuation τ sig (Elt F)) : after ops V (Proc.devRef .tc main_arg6) = V (Proc.devRef .tc main_arg6) := by
  rw [ops_eq, after_append, after_append, after_append, after_append, after_append,
    tail_keep_arg6, round4_keep_arg6, round3_keep_arg6, round2_keep_arg6, round1_keep_arg6, pre_keep_arg6]
theorem kept_arg7 (V : Valuation τ sig (Elt F)) : after ops V (Proc.devRef .tc main_arg7) = V (Proc.devRef .tc main_arg7) := by
  rw [ops_eq, after_append, after_append, after_append, after_append, after_append,
    tail_keep_arg7, round4_keep_arg7, round3_keep_arg7, round2_keep_arg7, round1_keep_arg7, pre_keep_arg7]

/-- On every device, for any float values, from any memory with zero counters: every weakly fair execution of @main
    terminates with the result at `refVal` of the gathered states and the weights, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
        = refVal (gathered (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v78).trans ((result_eq _).trans rfl),
      (h c main_arg0).trans ((kept_arg0 _).trans rfl),
      (h c main_arg1).trans ((kept_arg1 _).trans rfl),
      (h c main_arg2).trans ((kept_arg2 _).trans rfl),
      (h c main_arg3).trans ((kept_arg3 _).trans rfl),
      (h c main_arg4).trans ((kept_arg4 _).trans rfl),
      (h c main_arg5).trans ((kept_arg5 _).trans rfl),
      (h c main_arg6).trans ((kept_arg6 _).trans rfl),
      (h c main_arg7).trans ((kept_arg7 _).trans rfl)⟩)
    (run_seq scopedRefs_eq scopedSems_eq defs main (fun _ => ops) main_eq (fun _ => ops_sub) m ρ)

end Cert.ReferenceIdeal.Body

end
-- ==== Proof.lean ====
/-
  The kernel and its reference compute one function of the arguments over the extended reals.

  Both programs gather the agents' initial states from the table on the host, by the same operations. From there each
  batch row (64 agents × 256 coordinates) goes through four rounds of communication — every agent receives the scaled
  sum of the other agents' states and updates its state by a two-layer perceptron of its state, that message and its
  initial state — and a final projection to 16 scores (Proof/Spec.lean). The kernel does this 32 batch rows at a time,
  with each block laid out as a 2048-row matrix for its three matrix products into zero accumulators
  (Proof/KernelBody.lean, KernelLayers.lean), and its 32 blocks tile the result (Proof/KernelWhole.lean, KernelRun.lean);
  the reference does it on the whole array with host sums from zero and host contractions (Proof/RefBody.lean,
  RefRun.lean). Read index by index both are the specification's row computation: the only laws used are that a sum
  started from zero is the plain sum and that a reshape renames positions, so nothing depends on the inputs being
  finite, and the precondition is never opened. The two literals (the scale of the message, the threshold of the hidden
  layer) are the same words in both programs and are never evaluated. The idealization rewrote no operation, so its
  conjunct is trivial; the three frames are the generated ones.
-/
import proofs.«170941_j84146999263282_1_alg».proof.Defs
import proofs.«170941_j84146999263282_1_alg».proof.Proof.Gen.Kernel
import proofs.«170941_j84146999263282_1_alg».proof.Proof.Gen.Kernel.Skeleton
import proofs.«170941_j84146999263282_1_alg».proof.Proof.Gen.Kernel.Launch
import proofs.«170941_j84146999263282_1_alg».proof.Proof.Gen.Kernel.Points
import proofs.«170941_j84146999263282_1_alg».proof.Proof.Gen.Kernel.Frame
import proofs.«170941_j84146999263282_1_alg».proof.Proof.Gen.KernelIdeal
import proofs.«170941_j84146999263282_1_alg».proof.Proof.Gen.KernelIdeal.Skeleton
import proofs.«170941_j84146999263282_1_alg».proof.Proof.Gen.KernelIdeal.Launch
import proofs.«170941_j84146999263282_1_alg».proof.Proof.Gen.KernelIdeal.Points
import proofs.«170941_j84146999263282_1_alg».proof.Proof.Gen.KernelIdeal.Frame
import proofs.«170941_j84146999263282_1_alg».proof.Proof.Gen.ReferenceIdeal
import proofs.«170941_j84146999263282_1_alg».proof.Proof.Gen.Pre_finite_inputs
import proofs.«170941_j84146999263282_1_alg».proof.Proof.Gen.KernelIdeal.Value
import proofs.«170941_j84146999263282_1_alg».proof.Proof.KernelRun
import proofs.«170941_j84146999263282_1_alg».proof.Proof.RefRun
import Idealize.ShloMosaic.Adequacy
import Idealize.ShloMosaic.Init

noncomputable section

namespace Cert.Proof

open Idealize.ShloMosaic Idealize.ShloMosaic.TcCoe Idealize.SL.Sem Cert.Rounds

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Body.run (F := Ideal) m ρ)

/-- The two programs gather the initial states by the same host operations. -/
theorem gathered_eq (ids : (⟨Cert.KernelIdeal.S1024x64, .i32⟩ : BufTy).Contents (Elt Ideal))
    (emb : (⟨Cert.KernelIdeal.S1000x256, .f32⟩ : BufTy).Contents (Elt Ideal)) :
    Cert.ReferenceIdeal.Body.gathered (F := Ideal) ids emb = Cert.KernelIdeal.Whole.gathered (F := Ideal) ids emb := rfl

/-- At the extended reals the kernel's result array is the specification's result array of the arguments (its 32 blocks
    tile it), and so is the reference's (its composed term read index by index), from memories agreeing on the
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Body.run (F := Ideal) m' ρ')
  obtain ⟨a0, a1, a2, a3, a4, a5, a6, a7⟩ := hagree c
  rw [Cert.ReferenceIdeal.Body.refVal_eq, a0, a1, a2, a3, a4, a5, a6, a7, gathered_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
